-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4 : Shape := ⟨2, ![8192, 4]⟩
abbrev S16384x1 : Shape := ⟨2, ![16384, 1]⟩
abbrev S8192x16384 : Shape := ⟨2, ![8192, 16384]⟩
abbrev S12x1 : Shape := ⟨2, ![12, 1]⟩
abbrev S_ : Shape := ⟨0, ![]⟩

class Facts : Prop where
  bcast_S_S8192x4 : S_.BroadcastsInDim S8192x4 (![] : Fin 0 → Fin S8192x4.rank)
  reducesTo_S8192x4_S_d0_1 : S8192x4.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S8192x16384 : S_.BroadcastsInDim S8192x16384 (![] : Fin 0 → Fin S8192x16384.rank)
  reducesTo_S8192x16384_S_d0_1 : S8192x16384.ReducesTo [0, 1] S_
  bcast_S_S12x1 : S_.BroadcastsInDim S12x1 (![] : Fin 0 → Fin S12x1.rank)
  reducesTo_S12x1_S_d0_1 : S12x1.ReducesTo [0, 1] S_

variable [Facts]

def fn_part1 {F : FTy → Type} [FloatOps F] (main_arg4 : FVec F S12x1 .f32) (main_v13 : IVec S_ 1) (main_v16 : IVec S8192x16384 1) : IVec S_ 1 :=
  let main_c_5 : IVec S_ 1 := constantI S_ 1 1#1
  let main_v17 : IVec S_ 1 := (fun x v => Host.reduce IntOp.andi x v reducesTo_S8192x16384_S_d0_1 h_S_) main_v16 main_c_5
  let main_v18 : IVec S_ 1 := andi main_v13 main_v17
  let main_v19 : FVec F S12x1 .f32 := Host.absf main_arg4
  let main_cst_6 : FVec F S_ .f32 := constant S_ .f32 0x7F800000#32
  let main_v20 : FVec F S12x1 .f32 := broadcastInDim S12x1 ![] bcast_S_S12x1 main_cst_6
  let main_v21 : IVec S12x1 1 := cmpf .olt main_v19 main_v20
  let main_c_7 : IVec S_ 1 := constantI S_ 1 1#1
  let main_v22 : IVec S_ 1 := (fun x v => Host.reduce IntOp.andi x v reducesTo_S12x1_S_d0_1 h_S_) main_v21 main_c_7
  let main_v23 : IVec S_ 1 := andi main_v18 main_v22
  main_v23

def fn {F : FTy → Type} [FloatOps F] (main_arg0 : FVec F S8192x4 .f32) (main_arg1 : FVec F S16384x1 .f32) (main_arg2 : FVec F S8192x16384 .f32) (main_arg3 : FVec F S8192x16384 .f32) (main_arg4 : FVec F S12x1 .f32) : IVec S_ 1 :=
  let main_v0 : FVec F S8192x4 .f32 := Host.absf main_arg0
  let main_cst : FVec F S_ .f32 := constant S_ .f32 0x7F800000#32
  let main_v1 : FVec F S8192x4 .f32 := broadcastInDim S8192x4 ![] bcast_S_S8192x4 main_cst
  let main_v2 : IVec S8192x4 1 := cmpf .olt main_v0 main_v1
  let main_c : IVec S_ 1 := constantI S_ 1 1#1
  let main_v3 : IVec S_ 1 := (fun x v => Host.reduce IntOp.andi x v reducesTo_S8192x4_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S8192x16384 .f32 := Host.absf main_arg3
  let main_cst_4 : FVec F S_ .f32 := constant S_ .f32 0x7F800000#32
  let main_v15 : FVec F S8192x16384 .f32 := broadcastInDim S8192x16384 ![] bcast_S_S8192x16384 main_cst_4
  let main_v16 : IVec S8192x16384 1 := cmpf .olt main_v14 main_v15
  fn_part1 (F := F) main_arg4 main_v13 main_v16
-- ==== Kernel.lean ====
abbrev S8192x4 : Shape := ⟨2, ![8192, 4]⟩
abbrev S16384x1 : Shape := ⟨2, ![16384, 1]⟩
abbrev S8192x16384 : Shape := ⟨2, ![8192, 16384]⟩
abbrev S12x1 : Shape := ⟨2, ![12, 1]⟩
abbrev S16384x4 : Shape := ⟨2, ![16384, 4]⟩
abbrev S512x2048 : Shape := ⟨2, ![512, 2048]⟩
abbrev S512x4 : Shape := ⟨2, ![512, 4]⟩
abbrev S2048x4 : Shape := ⟨2, ![2048, 4]⟩
abbrev S8192x12 : Shape := ⟨2, ![8192, 12]⟩
abbrev S8192x1 : Shape := ⟨2, ![8192, 1]⟩

abbrev nBuf : Space → Nat
  | .hbm => 15
  | .vmem => 22
  | .smem => 0
  | _ => 0

abbrev bufTy : (tb : Table) → Fin (tcTables nBuf tb) → BufTy
  | .hbm, ⟨0, _⟩ => ⟨S8192x4, .f32⟩
  | .hbm, ⟨1, _⟩ => ⟨S16384x1, .f32⟩
  | .hbm, ⟨2, _⟩ => ⟨S8192x16384, .f32⟩
  | .hbm, ⟨3, _⟩ => ⟨S8192x16384, .f32⟩
  | .hbm, ⟨4, _⟩ => ⟨S12x1, .f32⟩
  | .hbm, ⟨5, _⟩ => ⟨S16384x4, .f32⟩
  | .hbm, ⟨6, _⟩ => ⟨S16384x4, .f32⟩
  | .hbm, ⟨7, _⟩ => ⟨S16384x4, .f32⟩
  | .hbm, ⟨8, _⟩ => ⟨S16384x4, .f32⟩
  | .hbm, ⟨9, _⟩ => ⟨S16384x4, .f32⟩
  | .hbm, ⟨10, _⟩ => ⟨S16384x4, .f32⟩
  | .hbm, ⟨11, _⟩ => ⟨S8192x4, .f32⟩
  | .hbm, ⟨12, _⟩ => ⟨S8192x4, .f32⟩
  | .hbm, ⟨13, _⟩ => ⟨S8192x12, .f32⟩
  | .hbm, ⟨14, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x4, .f32⟩
  | .local _ .vmem, ⟨5, _⟩ => ⟨S512x4, .f32⟩
  | .local _ .vmem, ⟨6, _⟩ => ⟨S2048x4, .f32⟩
  | .local _ .vmem, ⟨7, _⟩ => ⟨S2048x4, .f32⟩
  | .local _ .vmem, ⟨8, _⟩ => ⟨S2048x4, .f32⟩
  | .local _ .vmem, ⟨9, _⟩ => ⟨S2048x4, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S2048x4, .f32⟩
  | .local _ .vmem, ⟨15, _⟩ => ⟨S2048x4, .f32⟩
  | .local _ .vmem, ⟨16, _⟩ => ⟨S2048x4, .f32⟩
  | .local _ .vmem, ⟨17, _⟩ => ⟨S2048x4, .f32⟩
  | .local _ .vmem, ⟨18, _⟩ => ⟨S512x4, .f32⟩
  | .local _ .vmem, ⟨19, _⟩ => ⟨S512x4, .f32⟩
  | .local _ .vmem, ⟨20, _⟩ => ⟨S512x4, .f32⟩
  | .local _ .vmem, ⟨21, _⟩ => ⟨S512x4, .f32⟩
  | _, _ => ⟨S8192x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S2048x4_S2048x4_0_0 : ∀ a, (![0, 0] : Fin 2 → Nat) a + S2048x4.size a ≤ S2048x4.size a
  h_S2048x4 : 0 < S2048x4.numel
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S512x4_S512x4_0_0 : ∀ a, (![0, 0] : Fin 2 → Nat) a + S512x4.size a ≤ S512x4.size a
  h_S512x4 : 0 < S512x4.numel
  shapeCasts_S2048x4_S2048x4 : S2048x4.ShapeCasts S2048x4
  bcast_S16384x1_S16384x4_0_1 : S16384x1.BroadcastsInDim S16384x4 (![0, 1] : Fin 2 → Fin S16384x4.rank)
  shapeCasts_S512x4_S512x4 : S512x4.ShapeCasts S512x4
  concatenates_S8192x4_S8192x4_S8192x4_S8192x12_d1 : Shape.Concatenates [S8192x4, S8192x4, S8192x4] S8192x12 1
  dot_S512x2048_S512x4_S2048x4_0_0_1_1_n_n_wf : DotDims.WF S512x2048 S512x4 S2048x4 [0] [0] [1] [1] [] []
  dot_S512x2048_S2048x4_S512x4_1_0_0_1_n_n_wf : DotDims.WF S512x2048 S2048x4 S512x4 [1] [0] [0] [1] [] []
  dot_S8192x12_S12x1_S8192x1_1_0_0_1_n_n_wf : DotDims.WF S8192x12 S12x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x16384.size a
  hwx0_0 : ∀ i : grid0.Coords, EltTy.bits .f32 = 32 ∨ (Rect.block (s := S8192x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x16384.size a
  hwx0_1 : ∀ i : grid0.Coords, EltTy.bits .f32 = 32 ∨ (Rect.block (s := S8192x16384) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S8192x4.size a
  hwx0_2 : ∀ i : grid0.Coords, EltTy.bits .f32 = 32 ∨ (Rect.block (s := S8192x4) S512x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x4.size a ≤ S16384x4.size a
  hwx0_3 : ∀ i : grid0.Coords, EltTy.bits .f32 = 32 ∨ (Rect.block (s := S16384x4) S2048x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x4.size a ≤ S16384x4.size a
  hwx0_4 : ∀ i : grid0.Coords, EltTy.bits .f32 = 32 ∨ (Rect.block (s := S16384x4) S2048x4.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x16384.size a
  hwx1_0 : ∀ i : grid1.Coords, EltTy.bits .f32 = 32 ∨ (Rect.block (s := S8192x16384) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S8192x16384.size a
  hwx1_1 : ∀ i : grid1.Coords, EltTy.bits .f32 = 32 ∨ (Rect.block (s := S8192x16384) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x4.size a ≤ S16384x4.size a
  hwx1_2 : ∀ i : grid1.Coords, EltTy.bits .f32 = 32 ∨ (Rect.block (s := S16384x4) S2048x4.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x4.size a ≤ S16384x4.size a
  hwx1_3 : ∀ i : grid1.Coords, EltTy.bits .f32 = 32 ∨ (Rect.block (s := S16384x4) S2048x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4.size a ≤ S8192x4.size a
  hwx1_4 : ∀ i : grid1.Coords, EltTy.bits .f32 = 32 ∨ (Rect.block (s := S8192x4) S512x4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x4.size a ≤ S8192x4.size a
  hwx1_5 : ∀ i : grid1.Coords, EltTy.bits .f32 = 32 ∨ (Rect.block (s := S8192x4) S512x4.size (cc1_transform_5 i) (hinb1_5 i)).WholeWords (EltTy.packing .f32)

variable [Facts₀]

def dot_S512x2048_S512x4_S2048x4_0_0_1_1_n_n : DotDims S512x2048 S512x4 S2048x4 where
  lhsContracting := [0]
  rhsContracting := [0]
  lhsNonContracting := [1]
  rhsNonContracting := [1]
  lhsBatch := []
  rhsBatch := []
  wf := dot_S512x2048_S512x4_S2048x4_0_0_1_1_n_n_wf
def dot_S512x2048_S2048x4_S512x4_1_0_0_1_n_n : DotDims S512x2048 S2048x4 S512x4 where
  lhsContracting := [1]
  rhsContracting := [0]
  lhsNonContracting := [0]
  rhsNonContracting := [1]
  lhsBatch := []
  rhsBatch := []
  wf := dot_S512x2048_S2048x4_S512x4_1_0_0_1_n_n_wf
def dot_S8192x12_S12x1_S8192x1_1_0_0_1_n_n : DotDims S8192x12 S12x1 S8192x1 where
  lhsContracting := [1]
  rhsContracting := [0]
  lhsNonContracting := [0]
  rhsNonContracting := [1]
  lhsBatch := []
  rhsBatch := []
  wf := dot_S8192x12_S12x1_S8192x1_1_0_0_1_n_n_wf

abbrev win0_0 : Pipeline.Window sig grid0 :=
  Pipeline.Window.ofSpec (Memref.whole main_arg2) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2048x4.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2048x4.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S2048x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x4.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S512x4.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S512x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x4 : Shape := ⟨2, ![8192, 4]⟩
abbrev S16384x1 : Shape := ⟨2, ![16384, 1]⟩
abbrev S8192x16384 : Shape := ⟨2, ![8192, 16384]⟩
abbrev S12x1 : Shape := ⟨2, ![12, 1]⟩
abbrev S16384x8192 : Shape := ⟨2, ![16384, 8192]⟩
abbrev S16384x4 : Shape := ⟨2, ![16384, 4]⟩
abbrev S1x16384 : Shape := ⟨2, ![1, 16384]⟩
abbrev S8192x12 : Shape := ⟨2, ![8192, 12]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x4, .f32⟩
  | .hbm, ⟨1, _⟩ => ⟨S16384x1, .f32⟩
  | .hbm, ⟨2, _⟩ => ⟨S8192x16384, .f32⟩
  | .hbm, ⟨3, _⟩ => ⟨S8192x16384, .f32⟩
  | .hbm, ⟨4, _⟩ => ⟨S12x1, .f32⟩
  | .hbm, ⟨5, _⟩ => ⟨S16384x8192, .f32⟩
  | .hbm, ⟨6, _⟩ => ⟨S16384x4, .f32⟩
  | .hbm, ⟨7, _⟩ => ⟨S16384x8192, .f32⟩
  | .hbm, ⟨8, _⟩ => ⟨S16384x4, .f32⟩
  | .hbm, ⟨9, _⟩ => ⟨S1x16384, .f32⟩
  | .hbm, ⟨10, _⟩ => ⟨S8192x16384, .f32⟩
  | .hbm, ⟨11, _⟩ => ⟨S8192x16384, .f32⟩
  | .hbm, ⟨12, _⟩ => ⟨S8192x16384, .f32⟩
  | .hbm, ⟨13, _⟩ => ⟨S8192x16384, .f32⟩
  | .hbm, ⟨14, _⟩ => ⟨S8192x4, .f32⟩
  | .hbm, ⟨15, _⟩ => ⟨S8192x4, .f32⟩
  | .hbm, ⟨16, _⟩ => ⟨S8192x12, .f32⟩
  | .hbm, ⟨17, _⟩ => ⟨S8192x1, .f32⟩
  | _, _ => ⟨S8192x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S8192x16384_S16384x8192_1_0 : S8192x16384.Transposes [1, 0] S16384x8192
  transposes_S16384x1_S1x16384_1_0 : S16384x1.Transposes [1, 0] S1x16384
  bcast_S1x16384_S8192x16384_0_1 : S1x16384.BroadcastsInDim S8192x16384 (![0, 1] : Fin 2 → Fin S8192x16384.rank)
  concatenates_S8192x4_S8192x4_S8192x4_S8192x12_d1 : Shape.Concatenates [S8192x4, S8192x4, S8192x4] S8192x12 1
  dot_S16384x8192_S8192x4_S16384x4_1_0_0_1_n_n_wf : DotDims.WF S16384x8192 S8192x4 S16384x4 [1] [0] [0] [1] [] []
  dot_S8192x16384_S16384x4_S8192x4_1_0_0_1_n_n_wf : DotDims.WF S8192x16384 S16384x4 S8192x4 [1] [0] [0] [1] [] []
  dot_S8192x12_S12x1_S8192x1_1_0_0_1_n_n_wf : DotDims.WF S8192x12 S12x1 S8192x1 [1] [0] [0] [1] [] []

variable [Facts₀]

def dot_S16384x8192_S8192x4_S16384x4_1_0_0_1_n_n : DotDims S16384x8192 S8192x4 S16384x4 where
  lhsContracting := [1]
  rhsContracting := [0]
  lhsNonContracting := [0]
  rhsNonContracting := [1]
  lhsBatch := []
  rhsBatch := []
  wf := dot_S16384x8192_S8192x4_S16384x4_1_0_0_1_n_n_wf
def dot_S8192x16384_S16384x4_S8192x4_1_0_0_1_n_n : DotDims S8192x16384 S16384x4 S8192x4 where
  lhsContracting := [1]
  rhsContracting := [0]
  lhsNonContracting := [0]
  rhsNonContracting := [1]
  lhsBatch := []
  rhsBatch := []
  wf := dot_S8192x16384_S16384x4_S8192x4_1_0_0_1_n_n_wf
def dot_S8192x12_S12x1_S8192x1_1_0_0_1_n_n : DotDims S8192x12 S12x1 S8192x1 where
  lhsContracting := [1]
  rhsContracting := [0]
  lhsNonContracting := [0]
  rhsNonContracting := [1]
  lhsBatch := []
  rhsBatch := []
  wf := dot_S8192x12_S12x1_S8192x1_1_0_0_1_n_n_wf

class Facts : Prop extends Facts₀ where

variable [Facts]
-- ==== Proof.Bits.R0Runs.lean ====
/-
  First pallas_call (edge features): what its two control cases share.

  The grid is 8 × 16: the outer coordinate picks a tile of 2048 edges, the inner one a tile of 512 nodes. Both output
  blocks (2048 × 4) stay in their staging buffers across the 16 inner points of an edge tile: at inner coordinate 0
  the body first stores zeros into them, at every point it adds the product of the transposed 512 × 2048 incidence
  block with the 512 × 4 feature block, and the block is written back after inner coordinate 15.
-/
import proofs.«105642_j77137612636506_2_alg».proof.Proof.Gen.Kernel.Launch
import proofs.«105642_j77137612636506_2_alg».proof.Proof.Gen.Kernel.Skeleton
import proofs.«105642_j77137612636506_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the inner coordinate is zero. -/
abbrev cond0 (i : grid0.Coords) : Prop :=
  (Scalar.cmpi .ne (Scalar.extui (Scalar.cmpi .eq (BitVec.ofNat 32 (i 1).val) 0#32)) 0#32) = 1#1

/-- It holds exactly at the first of every 16 consecutive points. -/
theorem hcond0 : ∀ t : Fin cfg0.N, cond0 (grid0.coords t) ↔ t.val % 16 = 0 :=
  (by decide +kernel : ∀ t : Fin grid0.N, cond0 (grid0.coords t) ↔ t.val % 16 = 0)

/-- One staging buffer of each output window, through which its contents are stated. -/
abbrev VO0_3 : View sig .tc .vmem S2048x4 .f32 := (Memref.whole cc0_stg3_0 : Memref sig .tc .vmem S2048x4 .f32).view
abbrev VO0_4 : View sig .tc .vmem S2048x4 .f32 := (Memref.whole cc0_stg4_0 : Memref sig .tc .vmem S2048x4 .f32).view

/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x4 .f32 := win0_4.stage (cfg0.slots t 4)
abbrev hs0_4 (t : Fin cfg0.N) : (ms0_4 t).IsWhole := hstage0_4 ((cfg0.slots t 4).cast nbuf0_4)

end Cert.Kernel.Hand

end
-- ==== Proof.Bits.R0RunA.lean ====
/-
  First pallas_call, at a point whose inner coordinate is zero: the body zeroes both output buffers, then adds this point's two products.
-/
import proofs.«105642_j77137612636506_2_alg».proof.Proof.Bits.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the three input blocks the body runs to a continuation that gets the inputs back unchanged and
    each output buffer with those pieces written. -/
noncomputable def kernelRun0_A (c : Dev nD) (i : grid0.Coords)
    (arg2 : Memref sig .tc .vmem S512x2048 .f32) (harg2 : arg2.IsWhole) (arg3 : Memref sig .tc .vmem S512x2048 .f32) (harg3 : arg3.IsWhole)
    (arg4 : Memref sig .tc .vmem S512x4 .f32) (harg4 : arg4.IsWhole) (arg5 : Memref sig .tc .vmem S2048x4 .f32) (harg5 : arg5.IsWhole)
    (arg6 : Memref sig .tc .vmem S2048x4 .f32) (harg6 : arg6.IsWhole) (hc0 : cond0 i)
    (x0 : Vec F S512x2048 .f32) (x1 : Vec F S512x2048 .f32) (x2 : Vec F S512x4 .f32) :
    { L : List (View.Piece (Elt F) S2048x4 .f32) × List (View.Piece (Elt F) S2048x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__phase1_kernel i arg2 harg2 arg3 harg3 arg4 harg4 arg5 harg5 arg6 harg6) K } := by
  refine ⟨⟨?_, ?_⟩, fun E K => ?run⟩
  case run =>
    simp only [cc0__phase1_kernel_eq_skeleton]; unfold cc0__phase1_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.Bits.R0RunB.lean ====
/-
  First pallas_call, at a point whose inner coordinate is not zero: the body adds this point's two products to what the output buffers hold.
-/
import proofs.«105642_j77137612636506_2_alg».proof.Proof.Bits.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the three input blocks the body runs to a continuation that gets the inputs back unchanged and
    each output buffer with those pieces written. -/
noncomputable def kernelRun0_B (c : Dev nD) (i : grid0.Coords)
    (arg2 : Memref sig .tc .vmem S512x2048 .f32) (harg2 : arg2.IsWhole) (arg3 : Memref sig .tc .vmem S512x2048 .f32) (harg3 : arg3.IsWhole)
    (arg4 : Memref sig .tc .vmem S512x4 .f32) (harg4 : arg4.IsWhole) (arg5 : Memref sig .tc .vmem S2048x4 .f32) (harg5 : arg5.IsWhole)
    (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) :
    { L : List (View.Piece (Elt F) S2048x4 .f32) × List (View.Piece (Elt F) S2048x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__phase1_kernel i arg2 harg2 arg3 harg3 arg4 harg4 arg5 harg5 arg6 harg6) K } := by
  refine ⟨⟨?_, ?_⟩, fun E K => ?run⟩
  case run =>
    simp only [cc0__phase1_kernel_eq_skeleton]; unfold cc0__phase1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Hand

end
-- ==== Proof.Bits.R0.lean ====
/-
  First pallas_call (edge features): the frame half of its proof.
  Stated at any contents `V` of the buffers when the call is entered: each window's block at a point; what each control
  case leaves in the two output buffers (the stores' pieces read back); what the output buffers hold after every point,
  by recursion on the point (a point whose inner coordinate is zero starts afresh, any other adds to what the point
  before left, the buffers not being written back in between); the pipeline's proof data and the body's obligation.
-/
import proofs.«105642_j77137612636506_2_alg».proof.Proof.Bits.R0RunA
import proofs.«105642_j77137612636506_2_alg».proof.Proof.Bits.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves in the output buffers -/

/-- Case A's pieces for output window 3 tile its block, so they cover it. -/
theorem cover0_A_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) (y : S2048x4.Idx) :
    ∃ pc ∈ (kernelRun0_A c i arg2 harg2 arg3 harg3 arg4 harg4 arg5 harg5 arg6 harg6 hc0 x0 x1 x2).1.1, y ∈ pc.1.set :=
  View.cover_of_tiledL (kernelRun0_A c i arg2 harg2 arg3 harg3 arg4 harg4 arg5 harg5 arg6 harg6 hc0 x0 x1 x2).1.1 S2048x4.size (by sl_kernel_rfl) y

/-- What case A leaves in output window 3's buffer: its pieces read back. -/
def out0_A_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) : Vec F S2048x4 .f32 :=
  VO0_3.read (Elt F) (VO0_3.writes (Elt F) VO0_3.junk (kernelRun0_A c i arg2 harg2 arg3 harg3 arg4 harg4 arg5 harg5 arg6 harg6 hc0 x0 x1 x2).1.1)

/-- Case B's pieces for output window 3 tile its block, so they cover it. -/
theorem cover0_B_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) (y : S2048x4.Idx) :
    ∃ pc ∈ (kernelRun0_B c i arg2 harg2 arg3 harg3 arg4 harg4 arg5 harg5 arg6 harg6 hc0 x0 x1 x2 xo3 xo4).1.1, y ∈ pc.1.set :=
  View.cover_of_tiledL (kernelRun0_B c i arg2 harg2 arg3 harg3 arg4 harg4 arg5 harg5 arg6 harg6 hc0 x0 x1 x2 xo3 xo4).1.1 S2048x4.size (by sl_kernel_rfl) y

/-- What case B leaves in output window 3's buffer: its pieces read back. -/
def out0_B_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) : Vec F S2048x4 .f32 :=
  VO0_3.read (Elt F) (VO0_3.writes (Elt F) VO0_3.junk (kernelRun0_B c i arg2 harg2 arg3 harg3 arg4 harg4 arg5 harg5 arg6 harg6 hc0 x0 x1 x2 xo3 xo4).1.1)

/-- Case A's pieces for output window 4 tile its block, so they cover it. -/
theorem cover0_A_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) (y : S2048x4.Idx) :
    ∃ pc ∈ (kernelRun0_A c i arg2 harg2 arg3 harg3 arg4 harg4 arg5 harg5 arg6 harg6 hc0 x0 x1 x2).1.2, y ∈ pc.1.set :=
  View.cover_of_tiledL (kernelRun0_A c i arg2 harg2 arg3 harg3 arg4 harg4 arg5 harg5 arg6 harg6 hc0 x0 x1 x2).1.2 S2048x4.size (by sl_kernel_rfl) y

/-- What case A leaves in output window 4's buffer: its pieces read back. -/
def out0_A_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) : Vec F S2048x4 .f32 :=
  VO0_4.read (Elt F) (VO0_4.writes (Elt F) VO0_4.junk (kernelRun0_A c i arg2 harg2 arg3 harg3 arg4 harg4 arg5 harg5 arg6 harg6 hc0 x0 x1 x2).1.2)

/-- Case B's pieces for output window 4 tile its block, so they cover it. -/
theorem cover0_B_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) (y : S2048x4.Idx) :
    ∃ pc ∈ (kernelRun0_B c i arg2 harg2 arg3 harg3 arg4 harg4 arg5 harg5 arg6 harg6 hc0 x0 x1 x2 xo3 xo4).1.2, y ∈ pc.1.set :=
  View.cover_of_tiledL (kernelRun0_B c i arg2 harg2 arg3 harg3 arg4 harg4 arg5 harg5 arg6 harg6 hc0 x0 x1 x2 xo3 xo4).1.2 S2048x4.size (by sl_kernel_rfl) y

/-- What case B leaves in output window 4's buffer: its pieces read back. -/
def out0_B_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) : Vec F S2048x4 .f32 :=
  VO0_4.read (Elt F) (VO0_4.writes (Elt F) VO0_4.junk (kernelRun0_B c i arg2 harg2 arg3 harg3 arg4 harg4 arg5 harg5 arg6 harg6 hc0 x0 x1 x2 xo3 xo4).1.2)

section
variable (V : (c : Dev nD) → (b : Ref sig .tc) → Buf (Elt F) ((c : Thread nD τ).loc b))

/-! ## What the output buffers hold after each point -/

/-- The accumulation: the pair of output buffers' contents after the body at position `n`. -/
def outsAt0 (c : Dev nD) : (n : ℕ) → n < cfg0.N → Vec F S2048x4 .f32 × Vec F S2048x4 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

/-- At a point whose inner coordinate is zero: case A's contents. -/
theorem outsAt0_A (c : Dev nD) (t : Fin cfg0.N) (h0 : t.val % 16 = 0) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t),
       out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t)) := by
  obtain ⟨n, hn⟩ := t
  cases n with
  | zero => exact rfl
  | succ n => exact (dif_pos h0).trans rfl

/-- At any other point: case B's contents, over what the point before left. -/
theorem outsAt0_B (c : Dev nD) (t : Fin cfg0.N) (h0 : ¬t.val % 16 = 0) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t)
          (outsAt0 V c (t.val - 1) (Nat.lt_of_le_of_lt (Nat.sub_le _ _) t.isLt)).1 (outsAt0 V c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t)
          (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the call finds them; after the body at point `t` each input's buffer at its block and the two
    outputs' at the accumulation; the invariant is the rest of the scoped memory and the generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a point whose inner coordinate is not zero, output window 3's buffer holds what the body left at the point
    before: the point is not the first and the buffer was not written back in between. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dat0]

/-- At a point whose inner coordinate is not zero, output window 4's buffer holds what the body left at the point
    before: the point is not the first and the buffer was not written back in between. -/
theorem before0_4_B (c : Dev nD) (t : Fin cfg0.N) (h0 : ¬t.val % 16 = 0) (d) :
    (dat0 V c).before 4 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; the closed form of the condition says which case the
    point is in; in case B the outputs' buffers hold what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 128 := lt_of_lt_of_eq t.isLt (show cfg0.N = 128 from N_0)
  by_cases h0 : t.val % 16 = 0
  · rw [outsAt0_A V c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B V c t h0]
    dsimp only
    simp only [before0_3_B V c t h0, before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Bits.R1Runs.lean ====
/-
  Second pallas_call (node messages): what its two control cases share.

  The grid is 16 × 8: the outer coordinate picks a tile of 512 nodes, the inner one a tile of 2048 edges. Both output
  blocks (512 × 4) stay in their staging buffers across the 8 inner points of a node tile: at inner coordinate 0 the
  body first stores zeros into them, at every point it adds the product of the 512 × 2048 incidence block with a
  2048 × 4 block of weighted edge features, and the block is written back after inner coordinate 7.
-/
import proofs.«105642_j77137612636506_2_alg».proof.Proof.Gen.Kernel.Launch
import proofs.«105642_j77137612636506_2_alg».proof.Proof.Gen.Kernel.Skeleton
import proofs.«105642_j77137612636506_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the inner coordinate is zero. -/
abbrev cond1 (i : grid1.Coords) : Prop :=
  (Scalar.cmpi .ne (Scalar.extui (Scalar.cmpi .eq (BitVec.ofNat 32 (i 1).val) 0#32)) 0#32) = 1#1

/-- It holds exactly at the first of every 8 consecutive points. -/
theorem hcond1 : ∀ t : Fin cfg1.N, cond1 (grid1.coords t) ↔ t.val % 8 = 0 :=
  (by decide +kernel : ∀ t : Fin grid1.N, cond1 (grid1.coords t) ↔ t.val % 8 = 0)

/-- One staging buffer of each output window, through which its contents are stated. -/
abbrev VO1_4 : View sig .tc .vmem S512x4 .f32 := (Memref.whole cc1_stg4_0 : Memref sig .tc .vmem S512x4 .f32).view
abbrev VO1_5 : View sig .tc .vmem S512x4 .f32 := (Memref.whole cc1_stg5_0 : Memref sig .tc .vmem S512x4 .f32).view

/-- Each window's current staging memref at point `t`, as the pipeline passes it, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x4 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x4 .f32 := win1_5.stage (cfg1.slots t 5)
abbrev hs1_5 (t : Fin cfg1.N) : (ms1_5 t).IsWhole := hstage1_5 ((cfg1.slots t 5).cast nbuf1_5)

end Cert.Kernel.Hand

end
-- ==== Proof.Bits.R1RunA.lean ====
/-
  Second pallas_call, at a point whose inner coordinate is zero: the body zeroes both output buffers, then adds this point's two products.
-/
import proofs.«105642_j77137612636506_2_alg».proof.Proof.Bits.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the four input blocks the body runs to a continuation that gets the inputs back unchanged and
    each output buffer with those pieces written. -/
noncomputable def kernelRun1_A (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S2048x4 .f32) (harg4 : arg4.IsWhole) (arg5 : Memref sig .tc .vmem S2048x4 .f32) (harg5 : arg5.IsWhole)
    (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) :
    { L : List (View.Piece (Elt F) S512x4 .f32) × List (View.Piece (Elt F) S512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__phase2_kernel i arg2 harg2 arg3 harg3 arg4 harg4 arg5 harg5 arg6 harg6 arg7 harg7) K } := by
  refine ⟨⟨?_, ?_⟩, fun E K => ?run⟩
  case run =>
    simp only [cc1__phase2_kernel_eq_skeleton]; unfold cc1__phase2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Hand

end
-- ==== Proof.Bits.R1RunB.lean ====
/-
  Second pallas_call, at a point whose inner coordinate is not zero: the body adds this point's two products to what the output buffers hold.
-/
import proofs.«105642_j77137612636506_2_alg».proof.Proof.Bits.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the four input blocks the body runs to a continuation that gets the inputs back unchanged and
    each output buffer with those pieces written. -/
noncomputable def kernelRun1_B (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S2048x4 .f32) (harg4 : arg4.IsWhole) (arg5 : Memref sig .tc .vmem S2048x4 .f32) (harg5 : arg5.IsWhole)
    (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) :
    { L : List (View.Piece (Elt F) S512x4 .f32) × List (View.Piece (Elt F) S512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__phase2_kernel i arg2 harg2 arg3 harg3 arg4 harg4 arg5 harg5 arg6 harg6 arg7 harg7) K } := by
  refine ⟨⟨?_, ?_⟩, fun E K => ?run⟩
  case run =>
    simp only [cc1__phase2_kernel_eq_skeleton]; unfold cc1__phase2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.Kernel.Hand

end
-- ==== Proof.Bits.R1.lean ====
/-
  Second pallas_call (node messages): the frame half of its proof.
  Stated at any contents `V` of the buffers when the call is entered: each window's block at a point; what each control
  case leaves in the two output buffers (the stores' pieces read back); what the output buffers hold after every point,
  by recursion on the point (a point whose inner coordinate is zero starts afresh, any other adds to what the point
  before left, the buffers not being written back in between); the pipeline's proof data and the body's obligation.
-/
import proofs.«105642_j77137612636506_2_alg».proof.Proof.Bits.R1RunA
import proofs.«105642_j77137612636506_2_alg».proof.Proof.Bits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves in the output buffers -/

/-- Case A's pieces for output window 4 tile its block, so they cover it. -/
theorem cover1_A_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) (y : S512x4.Idx) :
    ∃ pc ∈ (kernelRun1_A c i arg2 harg2 arg3 harg3 arg4 harg4 arg5 harg5 arg6 harg6 arg7 harg7 hc0 x0 x1 x2 x3).1.1, y ∈ pc.1.set :=
  View.cover_of_tiledL (kernelRun1_A c i arg2 harg2 arg3 harg3 arg4 harg4 arg5 harg5 arg6 harg6 arg7 harg7 hc0 x0 x1 x2 x3).1.1 S512x4.size (by sl_kernel_rfl) y

/-- What case A leaves in output window 4's buffer: its pieces read back. -/
def out1_A_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) : Vec F S512x4 .f32 :=
  VO1_4.read (Elt F) (VO1_4.writes (Elt F) VO1_4.junk (kernelRun1_A c i arg2 harg2 arg3 harg3 arg4 harg4 arg5 harg5 arg6 harg6 arg7 harg7 hc0 x0 x1 x2 x3).1.1)

/-- Case B's pieces for output window 4 tile its block, so they cover it. -/
theorem cover1_B_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) (y : S512x4.Idx) :
    ∃ pc ∈ (kernelRun1_B c i arg2 harg2 arg3 harg3 arg4 harg4 arg5 harg5 arg6 harg6 arg7 harg7 hc0 x0 x1 x2 x3 xo4 xo5).1.1, y ∈ pc.1.set :=
  View.cover_of_tiledL (kernelRun1_B c i arg2 harg2 arg3 harg3 arg4 harg4 arg5 harg5 arg6 harg6 arg7 harg7 hc0 x0 x1 x2 x3 xo4 xo5).1.1 S512x4.size (by sl_kernel_rfl) y

/-- What case B leaves in output window 4's buffer: its pieces read back. -/
def out1_B_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) : Vec F S512x4 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xo5).1.1)

/-- Case A's pieces for output window 5 tile its block, so they cover it. -/
theorem cover1_A_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) (y : S512x4.Idx) :
    ∃ pc ∈ (kernelRun1_A c i arg2 harg2 arg3 harg3 arg4 harg4 arg5 harg5 arg6 harg6 arg7 harg7 hc0 x0 x1 x2 x3).1.2, y ∈ pc.1.set :=
  View.cover_of_tiledL (kernelRun1_A c i arg2 harg2 arg3 harg3 arg4 harg4 arg5 harg5 arg6 harg6 arg7 harg7 hc0 x0 x1 x2 x3).1.2 S512x4.size (by sl_kernel_rfl) y

/-- What case A leaves in output window 5's buffer: its pieces read back. -/
def out1_A_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) : Vec F S512x4 .f32 :=
  VO1_5.read (Elt F) (VO1_5.writes (Elt F) VO1_5.junk (kernelRun1_A c i arg2 harg2 arg3 harg3 arg4 harg4 arg5 harg5 arg6 harg6 arg7 harg7 hc0 x0 x1 x2 x3).1.2)

/-- Case B's pieces for output window 5 tile its block, so they cover it. -/
theorem cover1_B_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) (y : S512x4.Idx) :
    ∃ pc ∈ (kernelRun1_B c i arg2 harg2 arg3 harg3 arg4 harg4 arg5 harg5 arg6 harg6 arg7 harg7 hc0 x0 x1 x2 x3 xo4 xo5).1.2, y ∈ pc.1.set :=
  View.cover_of_tiledL (kernelRun1_B c i arg2 harg2 arg3 harg3 arg4 harg4 arg5 harg5 arg6 harg6 arg7 harg7 hc0 x0 x1 x2 x3 xo4 xo5).1.2 S512x4.size (by sl_kernel_rfl) y

/-- What case B leaves in output window 5's buffer: its pieces read back. -/
def out1_B_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) : Vec F S512x4 .f32 :=
  VO1_5.read (Elt F) (VO1_5.writes (Elt F) VO1_5.junk (kernelRun1_B c i arg2 harg2 arg3 harg3 arg4 harg4 arg5 harg5 arg6 harg6 arg7 harg7 hc0 x0 x1 x2 x3 xo4 xo5).1.2)

section
variable (V : (c : Dev nD) → (b : Ref sig .tc) → Buf (Elt F) ((c : Thread nD τ).loc b))

/-! ## What the output buffers hold after each point -/

/-- The accumulation: the pair of output buffers' contents after the body at position `n`. -/
def outsAt1 (c : Dev nD) : (n : ℕ) → n < cfg1.N → Vec F S512x4 .f32 × Vec F S512x4 .f32
  | 0, hn =>
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩),
     out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- At a point whose inner coordinate is zero: case A's contents. -/
theorem outsAt1_A (c : Dev nD) (t : Fin cfg1.N) (h0 : t.val % 8 = 0) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1 t).mpr h0) (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- At any other point: case B's contents, over what the point before left. -/
theorem outsAt1_B (c : Dev nD) (t : Fin cfg1.N) (h0 : ¬t.val % 8 = 0) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1 t).mp h)) (iblk1 V c 0 t) (iblk1 V c 1 t) (iblk1 V c 2 t) (iblk1 V c 3 t)
          (outsAt1 V c (t.val - 1) (Nat.lt_of_le_of_lt (Nat.sub_le _ _) t.isLt)).1 (outsAt1 V c (t.val - 1) (Nat.lt_of_le_of_lt (Nat.sub_le _ _) t.isLt)).2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1 t).mp h)) (iblk1 V c 0 t) (iblk1 V c 1 t) (iblk1 V c 2 t) (iblk1 V c 3 t)
          (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the call finds them; after the body at point `t` each input's buffer at its block and the two
    outputs' at the accumulation; the invariant is the rest of the scoped memory and the generator register;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point whose inner coordinate is not zero, output window 4's buffer holds what the body left at the point
    before: the point is not the first and the buffer was not written back in between. -/
theorem before1_4_B (c : Dev nD) (t : Fin cfg1.N) (h0 : ¬t.val % 8 = 0) (d) :
    (dat1 V c).before 4 t d = (outsAt1 V c (t.val - 1) (Nat.lt_of_le_of_lt (Nat.sub_le _ _) t.isLt)).1 := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-- At a point whose inner coordinate is not zero, output window 5's buffer holds what the body left at the point
    before: the point is not the first and the buffer was not written back in between. -/
theorem before1_5_B (c : Dev nD) (t : Fin cfg1.N) (h0 : ¬t.val % 8 = 0) (d) :
    (dat1 V c).before 5 t d = (outsAt1 V c (t.val - 1) (Nat.lt_of_le_of_lt (Nat.sub_le _ _) t.isLt)).2 := by
  have hN : t.val < 128 := lt_of_lt_of_eq t.isLt (show cfg1.N = 128 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; the closed form of the condition says which case the
    point is in; in case B the outputs' buffers hold what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 128 := lt_of_lt_of_eq t.isLt (show cfg1.N = 128 from N_1)
  by_cases h0 : t.val % 8 = 0
  · rw [outsAt1_A V c t h0]
    dsimp only
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    · unfold owns; iexists _; isplitr
      swap; · iexact H5
      ipureintro; exact View.read_writes_of_cover _ _ _ _ _ (cover1_A_5 c _ _ _ _ _ _ _ _ _ _ _ _ _ _ _ _ _ _)
  · rw [outsAt1_B V c t h0]
    dsimp only
    simp only [before1_4_B V c t h0, before1_5_B V c t h0]
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _)
    · unfold owns; iexists _; isplitr
      swap; · iexact H5
      ipureintro; exact View.read_writes_of_cover _ _ _ _ _ (cover1_B_5 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.Bits.Run.lean ====
/-
  The whole program's run: the first pallas_call, the host lines that weight the edge features, the second pallas_call,
  the host lines that join the two message arrays with the node features and project them.

  The contents of the unscoped buffers at the five boundaries between these segments are a fold from the launch memory:
  a pallas_call leaves its windows' arrays at what its write-backs leave and every other buffer as it was; a stretch of
  host lines leaves what running them leaves. Every weakly fair execution ends with every unscoped buffer at the last
  of these contents.
-/
import proofs.«105642_j77137612636506_2_alg».proof.Proof.Bits.R0
import proofs.«105642_j77137612636506_2_alg».proof.Proof.Bits.R1
import proofs.«105642_j77137612636506_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the first pallas_call. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)
/-- After the host lines between the two calls. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the second pallas_call. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)
/-- After the last host lines: the end. -/
abbrev B4 : Dev nD → Valuation τ sig (Elt F) := fun c => StableHlo.after hostOps2 (B3 m ρ c)

/-! ## The proof data family and the thread state -/

/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The pallas_calls as segments -/

set_option backward.isDefEq.respectTransparency.types false in
/-- Pallas_call 0 as a segment: entered with every unscoped buffer at the boundary contents before it and left at
    those after it. Its windows' arrays are split out of the unscoped buffers on entry and put back, at what the
    write-backs leave, on exit; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at the boundary contents before it and left at
    those after it. Its windows' arrays are split out of the unscoped buffers on entry and put back, at what the
    write-backs leave, on exit; the generator register passes through the invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ),
    .host (hseg hostOps2 hostOps2_sub hostOps2_fresh (B3 m ρ)) ]

theorem main_run (c : Dev nD) : main (F := F) c = Pipeline.Seg.run (segs m ρ) := (main_chain c).trans (by chain_rfl)

set_option backward.isDefEq.respectTransparency.types false in
/-- Every weakly fair execution of the program from memory `m` terminates, without a fault, with every unscoped buffer
    of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (B4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

end Cert.Kernel.Hand

end
-- ==== Proof.Bits.Args.lean ====
/-
  The five arguments end as launched, at any float instance: no host line writes one, and a pallas_call only reads them
  (through an input window, whose array ends as it was found) or does not touch them at all.
-/
import proofs.«105642_j77137612636506_2_alg».proof.Proof.Bits.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments, boundary by boundary -/

theorem B1_arg2 (c : Dev nD) : B1 m ρ c (Proc.devRef .tc main_arg2) = m ((c : Thread nD τ).loc main_arg2) :=
  (B1_arr m ρ c 0).trans (((dat0 (E0 m ρ) c).arrAt_in 0 rfl _).trans (A_eq0 (E0 m ρ) c 0))
theorem B1_arg3 (c : Dev nD) : B1 m ρ c (Proc.devRef .tc main_arg3) = m ((c : Thread nD τ).loc main_arg3) :=
  (B1_arr m ρ c 1).trans (((dat0 (E0 m ρ) c).arrAt_in 1 rfl _).trans (A_eq0 (E0 m ρ) c 1))
theorem B1_arg0 (c : Dev nD) : B1 m ρ c (Proc.devRef .tc main_arg0) = m ((c : Thread nD τ).loc main_arg0) :=
  (B1_arr m ρ c 2).trans (((dat0 (E0 m ρ) c).arrAt_in 2 rfl _).trans (A_eq0 (E0 m ρ) c 2))
theorem B1_arg1 (c : Dev nD) : B1 m ρ c (Proc.devRef .tc main_arg1) = m ((c : Thread nD τ).loc main_arg1) :=
  B1_of_ne m ρ c main_arg1 (by decide)
theorem B1_arg4 (c : Dev nD) : B1 m ρ c (Proc.devRef .tc main_arg4) = m ((c : Thread nD τ).loc main_arg4) :=
  B1_of_ne m ρ c main_arg4 (by decide)

theorem B2_of (c : Dev nD) (r : Ref sig .tc) (h : r ∉ hostOps1_W) : B2 m ρ c (Proc.devRef .tc r) = B1 m ρ c (Proc.devRef .tc r) :=
  StableHlo.after_of_writes_sub hostOps1 _ hostOps1_writes h

theorem B3_arg2 (c : Dev nD) : B3 m ρ c (Proc.devRef .tc main_arg2) = m ((c : Thread nD τ).loc main_arg2) :=
  (B3_arr m ρ c 0).trans (((dat1 (E2 m ρ) c).arrAt_in 0 rfl _).trans ((A_eq1 (E2 m ρ) c 0).trans ((B2_of m ρ c main_arg2 (by decide)).trans (B1_arg2 m ρ c))))
theorem B3_arg3 (c : Dev nD) : B3 m ρ c (Proc.devRef .tc main_arg3) = m ((c : Thread nD τ).loc main_arg3) :=
  (B3_arr m ρ c 1).trans (((dat1 (E2 m ρ) c).arrAt_in 1 rfl _).trans ((A_eq1 (E2 m ρ) c 1).trans ((B2_of m ρ c main_arg3 (by decide)).trans (B1_arg3 m ρ c))))
theorem B3_arg0 (c : Dev nD) : B3 m ρ c (Proc.devRef .tc main_arg0) = m ((c : Thread nD τ).loc main_arg0) :=
  (B3_of_ne m ρ c main_arg0 (by decide)).trans ((B2_of m ρ c main_arg0 (by decide)).trans (B1_arg0 m ρ c))
theorem B3_arg1 (c : Dev nD) : B3 m ρ c (Proc.devRef .tc main_arg1) = m ((c : Thread nD τ).loc main_arg1) :=
  (B3_of_ne m ρ c main_arg1 (by decide)).trans ((B2_of m ρ c main_arg1 (by decide)).trans (B1_arg1 m ρ c))
theorem B3_arg4 (c : Dev nD) : B3 m ρ c (Proc.devRef .tc main_arg4) = m ((c : Thread nD τ).loc main_arg4) :=
  (B3_of_ne m ρ c main_arg4 (by decide)).trans ((B2_of m ρ c main_arg4 (by decide)).trans (B1_arg4 m ρ c))

theorem B4_of (c : Dev nD) (r : Ref sig .tc) (h : r ∉ hostOps2_W) : B4 m ρ c (Proc.devRef .tc r) = B3 m ρ c (Proc.devRef .tc r) :=
  StableHlo.after_of_writes_sub hostOps2 _ hostOps2_writes h

/-- Every weakly fair execution of the program ends with its five arguments as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans ((B4_of m ρ c main_arg0 (by decide)).trans (B3_arg0 m ρ c)),
     (h c _ (mem_uc main_arg1 (by decide))).trans ((B4_of m ρ c main_arg1 (by decide)).trans (B3_arg1 m ρ c)),
     (h c _ (mem_uc main_arg2 (by decide))).trans ((B4_of m ρ c main_arg2 (by decide)).trans (B3_arg2 m ρ c)),
     (h c _ (mem_uc main_arg3 (by decide))).trans ((B4_of m ρ c main_arg3 (by decide)).trans (B3_arg3 m ρ c)),
     (h c _ (mem_uc main_arg4 (by decide))).trans ((B4_of m ρ c main_arg4 (by decide)).trans (B3_arg4 m ρ c))⟩)
    (run_all m ρ)

end Cert.Kernel.Hand

end
-- ==== Proof.Ideal.R0Runs.lean ====
/-
  First pallas_call (edge features): what its two control cases share.

  The grid is 8 × 16: the outer coordinate picks a tile of 2048 edges, the inner one a tile of 512 nodes. Both output
  blocks (2048 × 4) stay in their staging buffers across the 16 inner points of an edge tile: at inner coordinate 0
  the body first stores zeros into them, at every point it adds the product of the transposed 512 × 2048 incidence
  block with the 512 × 4 feature block, and the block is written back after inner coordinate 15.
-/
import proofs.«105642_j77137612636506_2_alg».proof.Proof.Gen.KernelIdeal.Launch
import proofs.«105642_j77137612636506_2_alg».proof.Proof.Gen.KernelIdeal.Skeleton
import proofs.«105642_j77137612636506_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the inner coordinate is zero. -/
abbrev cond0 (i : grid0.Coords) : Prop :=
  (Scalar.cmpi .ne (Scalar.extui (Scalar.cmpi .eq (BitVec.ofNat 32 (i 1).val) 0#32)) 0#32) = 1#1

/-- It holds exactly at the first of every 16 consecutive points. -/
theorem hcond0 : ∀ t : Fin cfg0.N, cond0 (grid0.coords t) ↔ t.val % 16 = 0 :=
  (by decide +kernel : ∀ t : Fin grid0.N, cond0 (grid0.coords t) ↔ t.val % 16 = 0)

/-- One staging buffer of each output window, through which its contents are stated. -/
abbrev VO0_3 : View sig .tc .vmem S2048x4 .f32 := (Memref.whole cc0_stg3_0 : Memref sig .tc .vmem S2048x4 .f32).view
abbrev VO0_4 : View sig .tc .vmem S2048x4 .f32 := (Memref.whole cc0_stg4_0 : Memref sig .tc .vmem S2048x4 .f32).view

/-- Each window's current staging memref at point `t`, as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x4 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x4 .f32 := win0_4.stage (cfg0.slots t 4)
abbrev hs0_4 (t : Fin cfg0.N) : (ms0_4 t).IsWhole := hstage0_4 ((cfg0.slots t 4).cast nbuf0_4)

end Cert.KernelIdeal.Hand

end
-- ==== Proof.Ideal.R0RunA.lean ====
/-
  First pallas_call, at a point whose inner coordinate is zero: the body zeroes both output buffers, then adds this point's two products.
-/
import proofs.«105642_j77137612636506_2_alg».proof.Proof.Ideal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the three input blocks the body runs to a continuation that gets the inputs back unchanged and
    each output buffer with those pieces written. -/
noncomputable def kernelRun0_A (c : Dev nD) (i : grid0.Coords)
    (arg2 : Memref sig .tc .vmem S512x2048 .f32) (harg2 : arg2.IsWhole) (arg3 : Memref sig .tc .vmem S512x2048 .f32) (harg3 : arg3.IsWhole)
    (arg4 : Memref sig .tc .vmem S512x4 .f32) (harg4 : arg4.IsWhole) (arg5 : Memref sig .tc .vmem S2048x4 .f32) (harg5 : arg5.IsWhole)
    (arg6 : Memref sig .tc .vmem S2048x4 .f32) (harg6 : arg6.IsWhole) (hc0 : cond0 i)
    (x0 : Vec F S512x2048 .f32) (x1 : Vec F S512x2048 .f32) (x2 : Vec F S512x4 .f32) :
    { L : List (View.Piece (Elt F) S2048x4 .f32) × List (View.Piece (Elt F) S2048x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__phase1_kernel i arg2 harg2 arg3 harg3 arg4 harg4 arg5 harg5 arg6 harg6) K } := by
  refine ⟨⟨?_, ?_⟩, fun E K => ?run⟩
  case run =>
    simp only [cc0__phase1_kernel_eq_skeleton]; unfold cc0__phase1_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.Ideal.R0RunB.lean ====
/-
  First pallas_call, at a point whose inner coordinate is not zero: the body adds this point's two products to what the output buffers hold.
-/
import proofs.«105642_j77137612636506_2_alg».proof.Proof.Ideal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the three input blocks the body runs to a continuation that gets the inputs back unchanged and
    each output buffer with those pieces written. -/
noncomputable def kernelRun0_B (c : Dev nD) (i : grid0.Coords)
    (arg2 : Memref sig .tc .vmem S512x2048 .f32) (harg2 : arg2.IsWhole) (arg3 : Memref sig .tc .vmem S512x2048 .f32) (harg3 : arg3.IsWhole)
    (arg4 : Memref sig .tc .vmem S512x4 .f32) (harg4 : arg4.IsWhole) (arg5 : Memref sig .tc .vmem S2048x4 .f32) (harg5 : arg5.IsWhole)
    (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) :
    { L : List (View.Piece (Elt F) S2048x4 .f32) × List (View.Piece (Elt F) S2048x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc0__phase1_kernel i arg2 harg2 arg3 harg3 arg4 harg4 arg5 harg5 arg6 harg6) K } := by
  refine ⟨⟨?_, ?_⟩, fun E K => ?run⟩
  case run =>
    simp only [cc0__phase1_kernel_eq_skeleton]; unfold cc0__phase1_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Hand

end
-- ==== Proof.Ideal.R0.lean ====
/-
  First pallas_call (edge features): the frame half of its proof.
  Stated at any contents `V` of the buffers when the call is entered: each window's block at a point; what each control
  case leaves in the two output buffers (the stores' pieces read back); what the output buffers hold after every point,
  by recursion on the point (a point whose inner coordinate is zero starts afresh, any other adds to what the point
  before left, the buffers not being written back in between); the pipeline's proof data and the body's obligation.
-/
import proofs.«105642_j77137612636506_2_alg».proof.Proof.Ideal.R0RunA
import proofs.«105642_j77137612636506_2_alg».proof.Proof.Ideal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## What each case leaves in the output buffers -/

/-- Case A's pieces for output window 3 tile its block, so they cover it. -/
theorem cover0_A_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) (y : S2048x4.Idx) :
    ∃ pc ∈ (kernelRun0_A c i arg2 harg2 arg3 harg3 arg4 harg4 arg5 harg5 arg6 harg6 hc0 x0 x1 x2).1.1, y ∈ pc.1.set :=
  View.cover_of_tiledL (kernelRun0_A c i arg2 harg2 arg3 harg3 arg4 harg4 arg5 harg5 arg6 harg6 hc0 x0 x1 x2).1.1 S2048x4.size (by sl_kernel_rfl) y

/-- What case A leaves in output window 3's buffer: its pieces read back. -/
def out0_A_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) : Vec F S2048x4 .f32 :=
  VO0_3.read (Elt F) (VO0_3.writes (Elt F) VO0_3.junk (kernelRun0_A c i arg2 harg2 arg3 harg3 arg4 harg4 arg5 harg5 arg6 harg6 hc0 x0 x1 x2).1.1)

/-- Case B's pieces for output window 3 tile its block, so they cover it. -/
theorem cover0_B_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) (y : S2048x4.Idx) :
    ∃ pc ∈ (kernelRun0_B c i arg2 harg2 arg3 harg3 arg4 harg4 arg5 harg5 arg6 harg6 hc0 x0 x1 x2 xo3 xo4).1.1, y ∈ pc.1.set :=
  View.cover_of_tiledL (kernelRun0_B c i arg2 harg2 arg3 harg3 arg4 harg4 arg5 harg5 arg6 harg6 hc0 x0 x1 x2 xo3 xo4).1.1 S2048x4.size (by sl_kernel_rfl) y

/-- What case B leaves in output window 3's buffer: its pieces read back. -/
def out0_B_3 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) : Vec F S2048x4 .f32 :=
  VO0_3.read (Elt F) (VO0_3.writes (Elt F) VO0_3.junk (kernelRun0_B c i arg2 harg2 arg3 harg3 arg4 harg4 arg5 harg5 arg6 harg6 hc0 x0 x1 x2 xo3 xo4).1.1)

/-- Case A's pieces for output window 4 tile its block, so they cover it. -/
theorem cover0_A_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) (y : S2048x4.Idx) :
    ∃ pc ∈ (kernelRun0_A c i arg2 harg2 arg3 harg3 arg4 harg4 arg5 harg5 arg6 harg6 hc0 x0 x1 x2).1.2, y ∈ pc.1.set :=
  View.cover_of_tiledL (kernelRun0_A c i arg2 harg2 arg3 harg3 arg4 harg4 arg5 harg5 arg6 harg6 hc0 x0 x1 x2).1.2 S2048x4.size (by sl_kernel_rfl) y

/-- What case A leaves in output window 4's buffer: its pieces read back. -/
def out0_A_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) : Vec F S2048x4 .f32 :=
  VO0_4.read (Elt F) (VO0_4.writes (Elt F) VO0_4.junk (kernelRun0_A c i arg2 harg2 arg3 harg3 arg4 harg4 arg5 harg5 arg6 harg6 hc0 x0 x1 x2).1.2)

/-- Case B's pieces for output window 4 tile its block, so they cover it. -/
theorem cover0_B_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) (y : S2048x4.Idx) :
    ∃ pc ∈ (kernelRun0_B c i arg2 harg2 arg3 harg3 arg4 harg4 arg5 harg5 arg6 harg6 hc0 x0 x1 x2 xo3 xo4).1.2, y ∈ pc.1.set :=
  View.cover_of_tiledL (kernelRun0_B c i arg2 harg2 arg3 harg3 arg4 harg4 arg5 harg5 arg6 harg6 hc0 x0 x1 x2 xo3 xo4).1.2 S2048x4.size (by sl_kernel_rfl) y

/-- What case B leaves in output window 4's buffer: its pieces read back. -/
def out0_B_4 (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) : Vec F S2048x4 .f32 :=
  VO0_4.read (Elt F) (VO0_4.writes (Elt F) VO0_4.junk (kernelRun0_B c i arg2 harg2 arg3 harg3 arg4 harg4 arg5 harg5 arg6 harg6 hc0 x0 x1 x2 xo3 xo4).1.2)

section
variable (V : (c : Dev nD) → (b : Ref sig .tc) → Buf (Elt F) ((c : Thread nD τ).loc b))

/-! ## What the output buffers hold after each point -/

/-- The accumulation: the pair of output buffers' contents after the body at position `n`. -/
def outsAt0 (c : Dev nD) : (n : ℕ) → n < cfg0.N → Vec F S2048x4 .f32 × Vec F S2048x4 .f32
  | 0, hn =>
    (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩),
     out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).1 (outsAt0 c n (Nat.lt_of_succ_lt hn)).2)

/-- At a point whose inner coordinate is zero: case A's contents. -/
theorem outsAt0_A (c : Dev nD) (t : Fin cfg0.N) (h0 : t.val % 16 = 0) :
    outsAt0 V c t.val t.isLt =
      (out0_A_3 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t),
       out0_A_4 c (grid0.coords t) (ms0_0 t) (hs0_0 t) (ms0_1 t) (hs0_1 t) (ms0_2 t) (hs0_2 t) (ms0_3 t) (hs0_3 t) (ms0_4 t) (hs0_4 t) ((hcond0 t).mpr h0) (iblk0 V c 0 t) (iblk0 V c 1 t) (iblk0 V c 2 t)) := by
  obtain ⟨n, hn⟩ := t
  cases n with
  | zero => exact rfl
  | succ n => exact (dif_pos h0).trans rfl

/-- At any other point: case B's contents, over what the point before left. -/
theorem outsAt0_B (c : Dev nD) (t : Fin cfg0.N) (h0 : ¬t.val % 16 = 0) :
    outsAt0 V c t.val t.isLt =
      (out0_B_3 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t)
          (outsAt0 V c (t.val - 1) (Nat.lt_of_le_of_lt (Nat.sub_le _ _) t.isLt)).1 (outsAt0 V c (t.val - 1) (Nat.lt_of_le_of_lt (Nat.sub_le _ _) t.isLt)).2,
       out0_B_4 c (grid0.coords t) (ms0_0 t) (hs0_0 t) (ms0_1 t) (hs0_1 t) (ms0_2 t) (hs0_2 t) (ms0_3 t) (hs0_3 t) (ms0_4 t) (hs0_4 t) (fun h => h0 ((hcond0 t).mp h)) (iblk0 V c 0 t) (iblk0 V c 1 t) (iblk0 V c 2 t)
          (outsAt0 V c (t.val - 1) (Nat.lt_of_le_of_lt (Nat.sub_le _ _) t.isLt)).1 (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the call finds them; after the body at point `t` each input's buffer at its block and the two
    outputs' at the accumulation; the invariant is the rest of the scoped memory and the generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a point whose inner coordinate is not zero, output window 3's buffer holds what the body left at the point
    before: the point is not the first and the buffer was not written back in between. -/
theorem before0_3_B (c : Dev nD) (t : Fin cfg0.N) (h0 : ¬t.val % 16 = 0) (d) :
    (dat0 V c).before 3 t d = (outsAt0 V c (t.val - 1) (Nat.lt_of_le_of_lt (Nat.sub_le _ _) t.isLt)).1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dat0]

/-- At a point whose inner coordinate is not zero, output window 4's buffer holds what the body left at the point
    before: the point is not the first and the buffer was not written back in between. -/
theorem before0_4_B (c : Dev nD) (t : Fin cfg0.N) (h0 : ¬t.val % 16 = 0) (d) :
    (dat0 V c).before 4 t d = (outsAt0 V c (t.val - 1) (Nat.lt_of_le_of_lt (Nat.sub_le _ _) t.isLt)).2 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

set_option maxHeartbeats 1600000 in
/-- The body at any point: the inputs' buffers hold their blocks; the closed form of the condition says which case the
    point is in; in case B the outputs' buffers hold what the point before left; so that case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 128 := lt_of_lt_of_eq t.isLt (show cfg0.N = 128 from N_0)
  by_cases h0 : t.val % 16 = 0
  · rw [outsAt0_A V c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0 t).mpr h0) (iblk0 V c 0 t) (iblk0 V c 1 t) (iblk0 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B V c t h0]
    dsimp only
    simp only [before0_3_B V c t h0, before0_4_B V c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0 t).mp h)) (iblk0 V c 0 t) (iblk0 V c 1 t) (iblk0 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Ideal.R1Runs.lean ====
/-
  Second pallas_call (node messages): what its two control cases share.

  The grid is 16 × 8: the outer coordinate picks a tile of 512 nodes, the inner one a tile of 2048 edges. Both output
  blocks (512 × 4) stay in their staging buffers across the 8 inner points of a node tile: at inner coordinate 0 the
  body first stores zeros into them, at every point it adds the product of the 512 × 2048 incidence block with a
  2048 × 4 block of weighted edge features, and the block is written back after inner coordinate 7.
-/
import proofs.«105642_j77137612636506_2_alg».proof.Proof.Gen.KernelIdeal.Launch
import proofs.«105642_j77137612636506_2_alg».proof.Proof.Gen.KernelIdeal.Skeleton
import proofs.«105642_j77137612636506_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the inner coordinate is zero. -/
abbrev cond1 (i : grid1.Coords) : Prop :=
  (Scalar.cmpi .ne (Scalar.extui (Scalar.cmpi .eq (BitVec.ofNat 32 (i 1).val) 0#32)) 0#32) = 1#1

/-- It holds exactly at the first of every 8 consecutive points. -/
theorem hcond1 : ∀ t : Fin cfg1.N, cond1 (grid1.coords t) ↔ t.val % 8 = 0 :=
  (by decide +kernel : ∀ t : Fin grid1.N, cond1 (grid1.coords t) ↔ t.val % 8 = 0)

/-- One staging buffer of each output window, through which its contents are stated. -/
abbrev VO1_4 : View sig .tc .vmem S512x4 .f32 := (Memref.whole cc1_stg4_0 : Memref sig .tc .vmem S512x4 .f32).view
abbrev VO1_5 : View sig .tc .vmem S512x4 .f32 := (Memref.whole cc1_stg5_0 : Memref sig .tc .vmem S512x4 .f32).view

/-- Each window's current staging memref at point `t`, as the pipeline passes it, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x4 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x4 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x4 .f32 := win1_5.stage (cfg1.slots t 5)
abbrev hs1_5 (t : Fin cfg1.N) : (ms1_5 t).IsWhole := hstage1_5 ((cfg1.slots t 5).cast nbuf1_5)

end Cert.KernelIdeal.Hand

end
-- ==== Proof.Ideal.R1RunA.lean ====
/-
  Second pallas_call, at a point whose inner coordinate is zero: the body zeroes both output buffers, then adds this point's two products.
-/
import proofs.«105642_j77137612636506_2_alg».proof.Proof.Ideal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the four input blocks the body runs to a continuation that gets the inputs back unchanged and
    each output buffer with those pieces written. -/
noncomputable def kernelRun1_A (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S2048x4 .f32) (harg4 : arg4.IsWhole) (arg5 : Memref sig .tc .vmem S2048x4 .f32) (harg5 : arg5.IsWhole)
    (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) :
    { L : List (View.Piece (Elt F) S512x4 .f32) × List (View.Piece (Elt F) S512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__phase2_kernel i arg2 harg2 arg3 harg3 arg4 harg4 arg5 harg5 arg6 harg6 arg7 harg7) K } := by
  refine ⟨⟨?_, ?_⟩, fun E K => ?run⟩
  case run =>
    simp only [cc1__phase2_kernel_eq_skeleton]; unfold cc1__phase2_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Hand

end
-- ==== Proof.Ideal.R1RunB.lean ====
/-
  Second pallas_call, at a point whose inner coordinate is not zero: the body adds this point's two products to what the output buffers hold.
-/
import proofs.«105642_j77137612636506_2_alg».proof.Proof.Ideal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two output buffers (last first), with the proof that on whole staging
    memrefs holding the four input blocks the body runs to a continuation that gets the inputs back unchanged and
    each output buffer with those pieces written. -/
noncomputable def kernelRun1_B (c : Dev nD) (i : grid1.Coords)
    (arg2 : Memref sig .tc .vmem S512x2048 .f32) (harg2 : arg2.IsWhole) (arg3 : Memref sig .tc .vmem S512x2048 .f32) (harg3 : arg3.IsWhole)
    (arg4 : Memref sig .tc .vmem S2048x4 .f32) (harg4 : arg4.IsWhole) (arg5 : Memref sig .tc .vmem S2048x4 .f32) (harg5 : arg5.IsWhole)
    (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) :
    { L : List (View.Piece (Elt F) S512x4 .f32) × List (View.Piece (Elt F) S512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L.1)
                ∗ (∃ f, arg7.view.loc (c : Thread nD τ) ↦[arg7.view.set]{fullShare} arg7.view.writes (Elt F) f L.2)) -∗ K ⟨⟩))
          ⊢ wp frame (wpE (defs₀ (F := F)) Variants.none c none) E (cc1__phase2_kernel i arg2 harg2 arg3 harg3 arg4 harg4 arg5 harg5 arg6 harg6 arg7 harg7) K } := by
  refine ⟨⟨?_, ?_⟩, fun E K => ?run⟩
  case run =>
    simp only [cc1__phase2_kernel_eq_skeleton]; unfold cc1__phase2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; iexact H5

end Cert.KernelIdeal.Hand

end
-- ==== Proof.Ideal.R1.lean ====
/-
  Second pallas_call (node messages): the frame half of its proof.
  Stated at any contents `V` of the buffers when the call is entered: each window's block at a point; what each control
  case leaves in the two output buffers (the stores' pieces read back); what the output buffers hold after every point,
  by recursion on the point (a point whose inner coordinate is zero starts afresh, any other adds to what the point
  before left, the buffers not being written back in between); the pipeline's proof data and the body's obligation.
-/
import proofs.«105642_j77137612636506_2_alg».proof.Proof.Ideal.R1RunA
import proofs.«105642_j77137612636506_2_alg».proof.Proof.Ideal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves in the output buffers -/

/-- Case A's pieces for output window 4 tile its block, so they cover it. -/
theorem cover1_A_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) (y : S512x4.Idx) :
    ∃ pc ∈ (kernelRun1_A c i arg2 harg2 arg3 harg3 arg4 harg4 arg5 harg5 arg6 harg6 arg7 harg7 hc0 x0 x1 x2 x3).1.1, y ∈ pc.1.set :=
  View.cover_of_tiledL (kernelRun1_A c i arg2 harg2 arg3 harg3 arg4 harg4 arg5 harg5 arg6 harg6 arg7 harg7 hc0 x0 x1 x2 x3).1.1 S512x4.size (by sl_kernel_rfl) y

/-- What case A leaves in output window 4's buffer: its pieces read back. -/
def out1_A_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) : Vec F S512x4 .f32 :=
  VO1_4.read (Elt F) (VO1_4.writes (Elt F) VO1_4.junk (kernelRun1_A c i arg2 harg2 arg3 harg3 arg4 harg4 arg5 harg5 arg6 harg6 arg7 harg7 hc0 x0 x1 x2 x3).1.1)

/-- Case B's pieces for output window 4 tile its block, so they cover it. -/
theorem cover1_B_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) (y : S512x4.Idx) :
    ∃ pc ∈ (kernelRun1_B c i arg2 harg2 arg3 harg3 arg4 harg4 arg5 harg5 arg6 harg6 arg7 harg7 hc0 x0 x1 x2 x3 xo4 xo5).1.1, y ∈ pc.1.set :=
  View.cover_of_tiledL (kernelRun1_B c i arg2 harg2 arg3 harg3 arg4 harg4 arg5 harg5 arg6 harg6 arg7 harg7 hc0 x0 x1 x2 x3 xo4 xo5).1.1 S512x4.size (by sl_kernel_rfl) y

/-- What case B leaves in output window 4's buffer: its pieces read back. -/
def out1_B_4 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) : Vec F S512x4 .f32 :=
  VO1_4.read (Elt F) (VO1_4.writes (Elt F) VO1_4.junk (kernelRun1_B c i arg2 harg2 arg3 harg3 arg4 harg4 arg5 harg5 arg6 harg6 arg7 harg7 hc0 x0 x1 x2 x3 xo4 xo5).1.1)

/-- Case A's pieces for output window 5 tile its block, so they cover it. -/
theorem cover1_A_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) (y : S512x4.Idx) :
    ∃ pc ∈ (kernelRun1_A c i arg2 harg2 arg3 harg3 arg4 harg4 arg5 harg5 arg6 harg6 arg7 harg7 hc0 x0 x1 x2 x3).1.2, y ∈ pc.1.set :=
  View.cover_of_tiledL (kernelRun1_A c i arg2 harg2 arg3 harg3 arg4 harg4 arg5 harg5 arg6 harg6 arg7 harg7 hc0 x0 x1 x2 x3).1.2 S512x4.size (by sl_kernel_rfl) y

/-- What case A leaves in output window 5's buffer: its pieces read back. -/
def out1_A_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) : Vec F S512x4 .f32 :=
  VO1_5.read (Elt F) (VO1_5.writes (Elt F) VO1_5.junk (kernelRun1_A c i arg2 harg2 arg3 harg3 arg4 harg4 arg5 harg5 arg6 harg6 arg7 harg7 hc0 x0 x1 x2 x3).1.2)

/-- Case B's pieces for output window 5 tile its block, so they cover it. -/
theorem cover1_B_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) (y : S512x4.Idx) :
    ∃ pc ∈ (kernelRun1_B c i arg2 harg2 arg3 harg3 arg4 harg4 arg5 harg5 arg6 harg6 arg7 harg7 hc0 x0 x1 x2 x3 xo4 xo5).1.2, y ∈ pc.1.set :=
  View.cover_of_tiledL (kernelRun1_B c i arg2 harg2 arg3 harg3 arg4 harg4 arg5 harg5 arg6 harg6 arg7 harg7 hc0 x0 x1 x2 x3 xo4 xo5).1.2 S512x4.size (by sl_kernel_rfl) y

/-- What case B leaves in output window 5's buffer: its pieces read back. -/
def out1_B_5 (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) : Vec F S512x4 .f32 :=
  VO1_5.read (Elt F) (VO1_5.writes (Elt F) VO1_5.junk (kernelRun1_B c i arg2 harg2 arg3 harg3 arg4 harg4 arg5 harg5 arg6 harg6 arg7 harg7 hc0 x0 x1 x2 x3 xo4 xo5).1.2)

section
variable (V : (c : Dev nD) → (b : Ref sig .tc) → Buf (Elt F) ((c : Thread nD τ).loc b))

/-! ## What the output buffers hold after each point -/

/-- The accumulation: the pair of output buffers' contents after the body at position `n`. -/
def outsAt1 (c : Dev nD) : (n : ℕ) → n < cfg1.N → Vec F S512x4 .f32 × Vec F S512x4 .f32
  | 0, hn =>
    (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩),
     out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 8 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩),
       out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).1 (outsAt1 c n (Nat.lt_of_succ_lt hn)).2)

/-- At a point whose inner coordinate is zero: case A's contents. -/
theorem outsAt1_A (c : Dev nD) (t : Fin cfg1.N) (h0 : t.val % 8 = 0) :
    outsAt1 V c t.val t.isLt =
      (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1 t).mpr h0) (iblk1 V c 0 t) (iblk1 V c 1 t) (iblk1 V c 2 t) (iblk1 V c 3 t),
       out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1 t).mpr h0) (iblk1 V c 0 t) (iblk1 V c 1 t) (iblk1 V c 2 t) (iblk1 V c 3 t)) := by
  obtain ⟨n, hn⟩ := t
  cases n with
  | zero => exact rfl
  | succ n => exact (dif_pos h0).trans rfl

/-- At any other point: case B's contents, over what the point before left. -/
theorem outsAt1_B (c : Dev nD) (t : Fin cfg1.N) (h0 : ¬t.val % 8 = 0) :
    outsAt1 V c t.val t.isLt =
      (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1 t).mp h)) (iblk1 V c 0 t) (iblk1 V c 1 t) (iblk1 V c 2 t) (iblk1 V c 3 t)
          (outsAt1 V c (t.val - 1) (Nat.lt_of_le_of_lt (Nat.sub_le _ _) t.isLt)).1 (outsAt1 V c (t.val - 1) (Nat.lt_of_le_of_lt (Nat.sub_le _ _) t.isLt)).2,
       out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1 t).mp h)) (iblk1 V c 0 t) (iblk1 V c 1 t) (iblk1 V c 2 t) (iblk1 V c 3 t)
          (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the call finds them; after the body at point `t` each input's buffer at its block and the two
    outputs' at the accumulation; the invariant is the rest of the scoped memory and the generator register;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a point whose inner coordinate is not zero, output window 4's buffer holds what the body left at the point
    before: the point is not the first and the buffer was not written back in between. -/
theorem before1_4_B (c : Dev nD) (t : Fin cfg1.N) (h0 : ¬t.val % 8 = 0) (d) :
    (dat1 V c).before 4 t d = (outsAt1 V c (t.val - 1) (Nat.lt_of_le_of_lt (Nat.sub_le _ _) t.isLt)).1 := by
  have hN : t.val < 128 := lt_of_lt_of_eq t.isLt (show cfg1.N = 128 from N_1)
  rw [Dat.before_out_kept _ 4 rfl t (by omega) (Bool.eq_false_iff.mpr fun h => by have := (flush1_4 _).mp h; dsimp only at this; omega)
    (fun _ => rfl) (fun _ _ => rfl)]
  dsimp only [dat1]

/-- At a point whose inner coordinate is not zero, output window 5's buffer holds what the body left at the point
    before: the point is not the first and the buffer was not written back in between. -/
theorem before1_5_B (c : Dev nD) (t : Fin cfg1.N) (h0 : ¬t.val % 8 = 0) (d) :
    (dat1 V c).before 5 t d = (outsAt1 V c (t.val - 1) (Nat.lt_of_le_of_lt (Nat.sub_le _ _) t.isLt)).2 := by
  have hN : t.val < 128 := lt_of_lt_of_eq t.isLt (show cfg1.N = 128 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' buffers hold their blocks; the closed form of the condition says which case the
    point is in; in case B the outputs' buffers hold what the point before left; so that case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 128 := lt_of_lt_of_eq t.isLt (show cfg1.N = 128 from N_1)
  by_cases h0 : t.val % 8 = 0
  · rw [outsAt1_A V c t h0]
    dsimp only
    unfold out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1 t).mpr h0) (iblk1 V c 0 t) (iblk1 V c 1 t) (iblk1 V c 2 t) (iblk1 V c 3 t)).2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _)
    · unfold owns; iexists _; isplitr
      swap; · iexact H5
      ipureintro; exact View.read_writes_of_cover _ _ _ _ _ (cover1_A_5 c _ _ _ _ _ _ _ _ _ _ _ _ _ _ _ _ _ _)
  · rw [outsAt1_B V c t h0]
    dsimp only
    simp only [before1_4_B V c t h0, before1_5_B V c t h0]
    unfold out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1 t).mp h)) (iblk1 V c 0 t) (iblk1 V c 1 t) (iblk1 V c 2 t) (iblk1 V c 3 t) _ _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_B_4 c _ _ _ _ _ _ _ _ _ _ _ _ _ _ _ _ _ _ _ _)
    · unfold owns; iexists _; isplitr
      swap; · iexact H5
      ipureintro; exact View.read_writes_of_cover _ _ _ _ _ (cover1_B_5 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Ideal.Run.lean ====
/-
  The whole program's run: the first pallas_call, the host lines that weight the edge features, the second pallas_call,
  the host lines that join the two message arrays with the node features and project them.

  The contents of the unscoped buffers at the five boundaries between these segments are a fold from the launch memory:
  a pallas_call leaves its windows' arrays at what its write-backs leave and every other buffer as it was; a stretch of
  host lines leaves what running them leaves. Every weakly fair execution ends with every unscoped buffer at the last
  of these contents.
-/
import proofs.«105642_j77137612636506_2_alg».proof.Proof.Ideal.R0
import proofs.«105642_j77137612636506_2_alg».proof.Proof.Ideal.R1
import proofs.«105642_j77137612636506_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => (s₀ m ρ).mem ((c : Dev nD), b)
abbrev E0 : (c : Dev nD) → (b : Ref sig .tc) → Buf (Elt F) ((c : Thread nD τ).loc b) := fun c b => B0 m ρ c b
/-- After the first pallas_call. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev E1 : (c : Dev nD) → (b : Ref sig .tc) → Buf (Elt F) ((c : Thread nD τ).loc b) := fun c b => B1 m ρ c b
theorem hF0 (c : Dev nD) (w : Fin cfg0.W) : (dat0 (E0 m ρ) c).arrAt w cfg0.N = E1 m ρ c (Pipeline.arrRef spec0 w) :=
  (B1_arr m ρ c w).symm
theorem hrest0 (c : Dev nD) : ∀ b, b ∉ Finset.univ.image (Pipeline.arrRef spec0) → E1 m ρ c b = E0 m ρ c b :=
  fun b hb => B1_of_ne m ρ c b fun w e => hb (Finset.mem_image.mpr ⟨w, Finset.mem_univ _, e⟩)
/-- After the host lines between the two calls. -/
abbrev B2 : Dev nD → Valuation τ sig (Elt F) := fun c => StableHlo.after hostOps1 (B1 m ρ c)
abbrev E2 : (c : Dev nD) → (b : Ref sig .tc) → Buf (Elt F) ((c : Thread nD τ).loc b) := fun c b => B2 m ρ c b
/-- After the second pallas_call. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)
/-- After the last host lines: the end. -/
abbrev B4 : Dev nD → Valuation τ sig (Elt F) := fun c => StableHlo.after hostOps2 (B3 m ρ c)

/-! ## The proof data family and the thread state -/

/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ c) ∗ ∃ r, prngReg c r)

/-! ## The pallas_calls as segments -/

set_option backward.isDefEq.respectTransparency.types false in
/-- Pallas_call 0 as a segment: entered with every unscoped buffer at the boundary contents before it and left at
    those after it. Its windows' arrays are split out of the unscoped buffers on entry and put back, at what the
    write-backs leave, on exit; the generator register passes through the invariant; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (E1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas_call 1 as a segment: entered with every unscoped buffer at the boundary contents before it and left at
    those after it. Its windows' arrays are split out of the unscoped buffers on entry and put back, at what the
    write-backs leave, on exit; the generator register passes through the invariant; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ),
    .host (hseg hostOps2 hostOps2_sub hostOps2_fresh (B3 m ρ)) ]

theorem main_run (c : Dev nD) : main (F := F) c = Pipeline.Seg.run (segs m ρ) := (main_chain c).trans (by chain_rfl)

set_option backward.isDefEq.respectTransparency.types false in
/-- Every weakly fair execution of the program from memory `m` terminates, without a fault, with every unscoped buffer
    of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (B4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

end Cert.KernelIdeal.Hand

end
-- ==== Proof.Ideal.Args.lean ====
/-
  The five arguments end as launched, at any float instance: no host line writes one, and a pallas_call only reads them
  (through an input window, whose array ends as it was found) or does not touch them at all.
-/
import proofs.«105642_j77137612636506_2_alg».proof.Proof.Ideal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments, boundary by boundary -/

theorem B1_arg2 (c : Dev nD) : B1 m ρ c (Proc.devRef .tc main_arg2) = m ((c : Thread nD τ).loc main_arg2) :=
  (B1_arr m ρ c 0).trans (((dat0 (E0 m ρ) c).arrAt_in 0 rfl _).trans (A_eq0 (E0 m ρ) c 0))
theorem B1_arg3 (c : Dev nD) : B1 m ρ c (Proc.devRef .tc main_arg3) = m ((c : Thread nD τ).loc main_arg3) :=
  (B1_arr m ρ c 1).trans (((dat0 (E0 m ρ) c).arrAt_in 1 rfl _).trans (A_eq0 (E0 m ρ) c 1))
theorem B1_arg0 (c : Dev nD) : B1 m ρ c (Proc.devRef .tc main_arg0) = m ((c : Thread nD τ).loc main_arg0) :=
  (B1_arr m ρ c 2).trans (((dat0 (E0 m ρ) c).arrAt_in 2 rfl _).trans (A_eq0 (E0 m ρ) c 2))
theorem B1_arg1 (c : Dev nD) : B1 m ρ c (Proc.devRef .tc main_arg1) = m ((c : Thread nD τ).loc main_arg1) :=
  B1_of_ne m ρ c main_arg1 (by decide)
theorem B1_arg4 (c : Dev nD) : B1 m ρ c (Proc.devRef .tc main_arg4) = m ((c : Thread nD τ).loc main_arg4) :=
  B1_of_ne m ρ c main_arg4 (by decide)

theorem B2_of (c : Dev nD) (r : Ref sig .tc) (h : r ∉ hostOps1_W) : B2 m ρ c (Proc.devRef .tc r) = B1 m ρ c (Proc.devRef .tc r) :=
  StableHlo.after_of_writes_sub hostOps1 _ hostOps1_writes h

theorem B3_arg2 (c : Dev nD) : B3 m ρ c (Proc.devRef .tc main_arg2) = m ((c : Thread nD τ).loc main_arg2) :=
  (B3_arr m ρ c 0).trans (((dat1 (E2 m ρ) c).arrAt_in 0 rfl _).trans ((A_eq1 (E2 m ρ) c 0).trans ((B2_of m ρ c main_arg2 (by decide)).trans (B1_arg2 m ρ c))))
theorem B3_arg3 (c : Dev nD) : B3 m ρ c (Proc.devRef .tc main_arg3) = m ((c : Thread nD τ).loc main_arg3) :=
  (B3_arr m ρ c 1).trans (((dat1 (E2 m ρ) c).arrAt_in 1 rfl _).trans ((A_eq1 (E2 m ρ) c 1).trans ((B2_of m ρ c main_arg3 (by decide)).trans (B1_arg3 m ρ c))))
theorem B3_arg0 (c : Dev nD) : B3 m ρ c (Proc.devRef .tc main_arg0) = m ((c : Thread nD τ).loc main_arg0) :=
  (B3_of_ne m ρ c main_arg0 (by decide)).trans ((B2_of m ρ c main_arg0 (by decide)).trans (B1_arg0 m ρ c))
theorem B3_arg1 (c : Dev nD) : B3 m ρ c (Proc.devRef .tc main_arg1) = m ((c : Thread nD τ).loc main_arg1) :=
  (B3_of_ne m ρ c main_arg1 (by decide)).trans ((B2_of m ρ c main_arg1 (by decide)).trans (B1_arg1 m ρ c))
theorem B3_arg4 (c : Dev nD) : B3 m ρ c (Proc.devRef .tc main_arg4) = m ((c : Thread nD τ).loc main_arg4) :=
  (B3_of_ne m ρ c main_arg4 (by decide)).trans ((B2_of m ρ c main_arg4 (by decide)).trans (B1_arg4 m ρ c))

theorem B4_of (c : Dev nD) (r : Ref sig .tc) (h : r ∉ hostOps2_W) : B4 m ρ c (Proc.devRef .tc r) = B3 m ρ c (Proc.devRef .tc r) :=
  StableHlo.after_of_writes_sub hostOps2 _ hostOps2_writes h

/-- Every weakly fair execution of the program ends with its five arguments as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans ((B4_of m ρ c main_arg0 (by decide)).trans (B3_arg0 m ρ c)),
     (h c _ (mem_uc main_arg1 (by decide))).trans ((B4_of m ρ c main_arg1 (by decide)).trans (B3_arg1 m ρ c)),
     (h c _ (mem_uc main_arg2 (by decide))).trans ((B4_of m ρ c main_arg2 (by decide)).trans (B3_arg2 m ρ c)),
     (h c _ (mem_uc main_arg3 (by decide))).trans ((B4_of m ρ c main_arg3 (by decide)).trans (B3_arg3 m ρ c)),
     (h c _ (mem_uc main_arg4 (by decide))).trans ((B4_of m ρ c main_arg4 (by decide)).trans (B3_arg4 m ρ c))⟩)
    (run_all m ρ)

end Cert.KernelIdeal.Hand

end
-- ==== Proof.Ideal.Vals.lean ====
/-
  What the two control cases leave in the output buffers, as values: at a point whose inner coordinate is zero, the
  zero block plus this point's product; at any other point, what the buffer held plus this point's product. So the
  contents after each point obey a two-case recursion over the body's arithmetic alone.
-/
import proofs.«105642_j77137612636506_2_alg».proof.Proof.Ideal.R0
import proofs.«105642_j77137612636506_2_alg».proof.Proof.Ideal.R1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## First pallas_call -/

theorem out0_A_3_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) :
    out0_A_3 c i arg2 harg2 arg3 harg3 arg4 harg4 arg5 harg5 arg6 harg6 hc0 x0 x1 x2 = k0_pay4 x0 x2 (k0_pay1 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S2048x4) hz, View.readCov_unit_zero (S := S2048x4) _ hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz]

theorem out0_A_4_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : cond0 i)
    (x0 : Vec F S512x2048 .f32) (x1 : Vec F S512x2048 .f32) (x2 : Vec F S512x4 .f32) :
    out0_A_4 c i arg2 harg2 arg3 harg3 arg4 harg4 arg5 harg5 arg6 harg6 hc0 x0 x1 x2 = k0_pay5 x1 x2 (k0_pay2 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S2048x4) hz, View.readCov_unit_zero (S := S2048x4) _ hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz]

theorem out0_B_3_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) :
    out0_B_3 c i arg2 harg2 arg3 harg3 arg4 harg4 arg5 harg5 arg6 harg6 hc0 x0 x1 x2 xo3 xo4 = k0_pay4 x0 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  rw [View.canon_unit_zero hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz]

theorem out0_B_4_eq (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S512x4 .f32) (harg4 : arg4.IsWhole) (arg5 : Memref sig .tc .vmem S2048x4 .f32) (harg5 : arg5.IsWhole) (arg6 : Memref sig .tc .vmem S2048x4 .f32) (harg6 : arg6.IsWhole) (hc0 : ¬cond0 i)
    (x0 : Vec F S512x2048 .f32) (x1 : Vec F S512x2048 .f32) (x2 : Vec F S512x4 .f32) (xo3 : Vec F S2048x4 .f32) (xo4 : Vec F S2048x4 .f32) :
    out0_B_4 c i arg2 harg2 arg3 harg3 arg4 harg4 arg5 harg5 arg6 harg6 hc0 x0 x1 x2 xo3 xo4 = k0_pay5 x1 x2 xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  rw [View.canon_unit_zero hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz]

/-! ## Second pallas_call -/

theorem out1_A_4_eq (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) :
    out1_A_4 c i arg2 harg2 arg3 harg3 arg4 harg4 arg5 harg5 arg6 harg6 arg7 harg7 hc0 x0 x1 x2 x3 = k1_pay3 x0 x2 (k1_pay1 (F := F)) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S512x4) hz, View.readCov_unit_zero (S := S512x4) _ hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz, harg7.read_unread]

theorem out1_A_5_eq (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : cond1 i)
    (x0 : Vec F S512x2048 .f32) (x1 : Vec F S512x2048 .f32) (x2 : Vec F S2048x4 .f32) (x3 : Vec F S2048x4 .f32) :
    out1_A_5 c i arg2 harg2 arg3 harg3 arg4 harg4 arg5 harg5 arg6 harg6 arg7 harg7 hc0 x0 x1 x2 x3 = k1_pay4 x1 x3 (k1_pay2 (F := F)) := by
  unfold out1_A_5
  rw [View.read_writes_eq_canon _ _ _ (cover1_A_5 c i arg2 harg2 arg3 harg3 arg4 harg4 arg5 harg5 arg6 harg6 arg7 harg7 hc0 x0 x1 x2 x3)]
  unfold kernelRun1_A
  dsimp only
  sl_unfold_words
  rw [View.canon_cons_unit_zero (S := S512x4) hz, View.readCov_unit_zero (S := S512x4) _ hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz, harg7.read_unread]

theorem out1_B_4_eq (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) :
    out1_B_4 c i arg2 harg2 arg3 harg3 arg4 harg4 arg5 harg5 arg6 harg6 arg7 harg7 hc0 x0 x1 x2 x3 xo4 xo5 = k1_pay3 x0 x2 xo4 := by
  unfold out1_B_4
  rw [View.read_writes_eq_canon _ _ _ (cover1_B_4 c i arg2 harg2 arg3 harg3 arg4 harg4 arg5 harg5 arg6 harg6 arg7 harg7 hc0 x0 x1 x2 x3 xo4 xo5)]
  unfold kernelRun1_B
  dsimp only
  rw [View.canon_unit_zero hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz, harg7.read_unread]

theorem out1_B_5_eq (c : Dev nD) (i : grid1.Coords) (arg2 : Memref sig .tc .vmem S512x2048 .f32) (harg2 : arg2.IsWhole) (arg3 : Memref sig .tc .vmem S512x2048 .f32) (harg3 : arg3.IsWhole) (arg4 : Memref sig .tc .vmem S2048x4 .f32) (harg4 : arg4.IsWhole) (arg5 : Memref sig .tc .vmem S2048x4 .f32) (harg5 : arg5.IsWhole) (arg6 : Memref sig .tc .vmem S512x4 .f32) (harg6 : arg6.IsWhole) (arg7 : Memref sig .tc .vmem S512x4 .f32) (harg7 : arg7.IsWhole) (hc0 : ¬cond1 i)
    (x0 : Vec F S512x2048 .f32) (x1 : Vec F S512x2048 .f32) (x2 : Vec F S2048x4 .f32) (x3 : Vec F S2048x4 .f32) (xo4 : Vec F S512x4 .f32) (xo5 : Vec F S512x4 .f32) :
    out1_B_5 c i arg2 harg2 arg3 harg3 arg4 harg4 arg5 harg5 arg6 harg6 arg7 harg7 hc0 x0 x1 x2 x3 xo4 xo5 = k1_pay4 x1 x3 xo5 := by
  unfold out1_B_5
  rw [View.read_writes_eq_canon _ _ _ (cover1_B_5 c i arg2 harg2 arg3 harg3 arg4 harg4 arg5 harg5 arg6 harg6 arg7 harg7 hc0 x0 x1 x2 x3 xo4 xo5)]
  unfold kernelRun1_B
  dsimp only
  rw [View.canon_unit_zero hz]
  simp only [View.readAt_eq_ld, harg2.read_unread, harg3.read_unread, harg4.read_unread, harg5.read_unread, harg6.read_unread, View.ld_unit_zero (S := S512x2048) hz, View.ld_unit_zero (S := S512x4) hz, View.ld_unit_zero (S := S2048x4) hz, harg7.read_unread]

/-! ## The recursion the accumulations obey -/

section
variable (V : (c : Dev nD) → (b : Ref sig .tc) → Buf (Elt F) ((c : Thread nD τ).loc b))

theorem outsAt0_start (c : Dev nD) (t : Fin cfg0.N) (h0 : t.val % 16 = 0) :
    outsAt0 V c t.val t.isLt =
      (k0_pay4 (iblk0 V c 0 t) (iblk0 V c 2 t) (k0_pay1 (F := F)), k0_pay5 (iblk0 V c 1 t) (iblk0 V c 2 t) (k0_pay2 (F := F))) := by
  rw [outsAt0_A V c t h0, out0_A_3_eq, out0_A_4_eq]

theorem outsAt0_step (c : Dev nD) (t : Fin cfg0.N) (h0 : ¬t.val % 16 = 0) :
    outsAt0 V c t.val t.isLt =
      (k0_pay4 (iblk0 V c 0 t) (iblk0 V c 2 t) (outsAt0 V c (t.val - 1) (Nat.lt_of_le_of_lt (Nat.sub_le _ _) t.isLt)).1,
       k0_pay5 (iblk0 V c 1 t) (iblk0 V c 2 t) (outsAt0 V c (t.val - 1) (Nat.lt_of_le_of_lt (Nat.sub_le _ _) t.isLt)).2) := by
  rw [outsAt0_B V c t h0, out0_B_3_eq, out0_B_4_eq]

theorem outsAt1_start (c : Dev nD) (t : Fin cfg1.N) (h0 : t.val % 8 = 0) :
    outsAt1 V c t.val t.isLt =
      (k1_pay3 (iblk1 V c 0 t) (iblk1 V c 2 t) (k1_pay1 (F := F)), k1_pay4 (iblk1 V c 1 t) (iblk1 V c 3 t) (k1_pay2 (F := F))) := by
  rw [outsAt1_A V c t h0, out1_A_4_eq, out1_A_5_eq]

theorem outsAt1_step (c : Dev nD) (t : Fin cfg1.N) (h0 : ¬t.val % 8 = 0) :
    outsAt1 V c t.val t.isLt =
      (k1_pay3 (iblk1 V c 0 t) (iblk1 V c 2 t) (outsAt1 V c (t.val - 1) (Nat.lt_of_le_of_lt (Nat.sub_le _ _) t.isLt)).1,
       k1_pay4 (iblk1 V c 1 t) (iblk1 V c 3 t) (outsAt1 V c (t.val - 1) (Nat.lt_of_le_of_lt (Nat.sub_le _ _) t.isLt)).2) := by
  rw [outsAt1_B V c t h0, out1_B_4_eq, out1_B_5_eq]

end

end Cert.KernelIdeal.Hand

end
-- ==== Proof.LibIdxSums.lean ====
/-
  Sums over the index set of a rank-3 or rank-4 array, taken coordinate by coordinate, and the host's add-reductions
  read through them at the exact values: a reduction of a [n0, n1, n2, n3] array over the axes 0, 2, 3 at class `k`
  is the initial value plus the threefold sum over the other coordinates of the entries (a, k, c, d); a reduction of
  a [n0, n1, n2] array over all its axes is the initial value plus the threefold sum over all coordinates.
-/
import Idealize.ShloMosaic.Lib.ValueIdx
import Idealize.ShloMosaic.PureOps.Ideal.Laws

noncomputable section

open scoped BigOperators

namespace Cert.Lib.IdxSums

open Idealize.ShloMosaic Idealize.ShloMosaic.ValueIdx

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the threefold sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the rank-4 indices whose second coordinate is `k`: the threefold sum over the other coordinates. -/
theorem sum_filter_axis1 {M : Type*} [AddCommMonoid M] {n0 n1 n2 n3 : Nat} (x : (⟨4, ![n0, n1, n2, n3]⟩ : Shape).Idx → M)
    (k : Fin n1) (p : (⟨4, ![n0, n1, n2, n3]⟩ : Shape).Idx → Prop) [DecidablePred p] (hp : ∀ i, p i ↔ i 1 = k) :
    ∑ i ∈ Finset.univ.filter p, x i = ∑ a : Fin n0, ∑ c : Fin n2, ∑ d : Fin n3, x (ix4 a k c d) := by
  rw [Finset.sum_filter, sum_idx4]
  refine Finset.sum_congr rfl fun a _ => ?_
  rw [Finset.sum_eq_single k]
  · refine Finset.sum_congr rfl fun c _ => Finset.sum_congr rfl fun d _ => ?_
    rw [if_pos ((hp _).mpr rfl)]
  · intro b _ hb
    refine Finset.sum_eq_zero fun c _ => Finset.sum_eq_zero fun d _ => ?_
    rw [if_neg (fun h => hb ((hp _).mp h))]
  · intro h
    exact absurd (Finset.mem_univ k) h

/-- Dropping the axes 0, 2, 3 of a rank-4 index leaves its second coordinate. -/
theorem drop_023_iff {n0 n1 n2 n3 : Nat} (h : (⟨4, ![n0, n1, n2, n3]⟩ : Shape).ReducesTo [0, 2, 3] ⟨1, ![n1]⟩)
    (i : (⟨4, ![n0, n1, n2, n3]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0, 2, 3 of a rank-4 array, at class `k`. -/
theorem hostSum_023 {n0 n1 n2 n3 : Nat} (h : (⟨4, ![n0, n1, n2, n3]⟩ : Shape).ReducesTo [0, 2, 3] ⟨1, ![n1]⟩)
    (x : (⟨4, ![n0, n1, n2, n3]⟩ : Shape).Idx → EReal) (init : EReal) (k : Fin n1) :
    Ideal.hostReduceAdd h x init (ix1 k) = init + ∑ a : Fin n0, ∑ c : Fin n2, ∑ d : Fin n3, x (ix4 a k c d) := by
  unfold Ideal.hostReduceAdd
  rw [sum_filter_axis1 x k _ (fun i => drop_023_iff h i k)]

/-- The host's sum over every axis of a rank-3 array. -/
theorem hostSum_all3 {n0 n1 n2 : Nat} (h : (⟨3, ![n0, n1, n2]⟩ : Shape).ReducesTo [0, 1, 2] ⟨0, ![]⟩)
    (x : (⟨3, ![n0, n1, n2]⟩ : Shape).Idx → EReal) (init : EReal) (j : (⟨0, ![]⟩ : Shape).Idx) :
    Ideal.hostReduceAdd h x init j = init + ∑ a : Fin n0, ∑ b : Fin n1, ∑ c : Fin n2, x (ix3 a b c) := by
  rw [Ideal.hostReduceAdd_total h (fun b => b.elim0) x init j, sum_idx3]

end Cert.Lib.IdxSums

end
-- ==== Proof.LibTiles.lean ====
/-
  Sums taken tile by tile, and the host's sum over the outer and the inner axis of a three-axis array.

  * `sum_tiles`: a row of length `S = J · L` cut into `J` tiles of `L` entries. Summing, over the `A · J` pairs
    (row, tile) counted as one index `t` (row `t / J`, tile `t % J`), the sums of the tiles' entries gives the sum
    over all rows and all entries. Addition in a commutative monoid is all it uses, so on the extended reals it holds
    with infinite entries too.
  * `hostSum_02`: at the exact values, the host's add-reduction of a `[n0, n1, n2]` array over the axes 0 and 2, at
    class `k`, is the initial value plus the twofold sum over the other coordinates of the entries `(a, k, c)`
    (over the threefold sum of LibIdxSums.lean, in the manner of its reduction over three axes of a rank-4 array).
-/
import Idealize.ShloMosaic.Lib.ValueIdx
import Idealize.ShloMosaic.PureOps.Ideal.Laws
import proofs.«105642_j77137612636506_2_alg».proof.Proof.LibIdxSums

noncomputable section

open scoped BigOperators

namespace Cert.LibTiles

open Idealize.ShloMosaic Idealize.ShloMosaic.ValueIdx Cert.Lib.IdxSums

/-- Position `l` of tile `j`, among `J` tiles of `L` entries laid end to end in a row of length `S = J · L`. -/
def tilePos {J L S : ℕ} (hS : J * L = S) (j : Fin J) (l : Fin L) : Fin S := Fin.cast hS (finProdFinEquiv (j, l))

theorem tilePos_val {J L S : ℕ} (hS : J * L = S) (j : Fin J) (l : Fin L) : (tilePos hS j l).val = l.val + L * j.val := rfl

/-- A sum over a row of length `J · L` is the sum over the tiles of the sums over each tile's entries. -/
theorem sum_row_tiles {M : Type*} [AddCommMonoid M] {J L S : ℕ} (hS : J * L = S) (f : Fin S → M) :
    ∑ s : Fin S, f s = ∑ j : Fin J, ∑ l : Fin L, f (tilePos hS j l) := by
  rw [← Equiv.sum_comp (finCongr hS) f, ← Equiv.sum_comp finProdFinEquiv (fun s => f (finCongr hS s)),
    Fintype.sum_prod_type]
  rfl

/-- Summing tile sums over all (row, tile) pairs, the pair counted as `t = row · J + tile`, sums every entry once. -/
theorem sum_tiles {M : Type*} [AddCommMonoid M] {A J L S : ℕ} (hS : J * L = S) (g : Fin A → Fin S → M) :
    ∑ t : Fin (A * J), ∑ l : Fin L, g t.divNat (tilePos hS t.modNat l) = ∑ n : Fin A, ∑ s : Fin S, g n s := by
  rw [← Equiv.sum_comp finProdFinEquiv (fun t : Fin (A * J) => ∑ l : Fin L, g t.divNat (tilePos hS t.modNat l)),
    Fintype.sum_prod_type]
  refine Finset.sum_congr rfl fun n _ => ?_
  rw [sum_row_tiles hS (g n)]
  refine Finset.sum_congr rfl fun j _ => ?_
  have e : (finProdFinEquiv (n, j) : Fin (A * J)).divNat = n ∧ (finProdFinEquiv (n, j) : Fin (A * J)).modNat = j := by
    have := finProdFinEquiv.symm_apply_apply (n, j)
    exact ⟨congrArg Prod.fst this, congrArg Prod.snd this⟩
  rw [e.1, e.2]

/-- The sum over the rank-3 indices whose middle coordinate is `k`: the twofold sum over the other coordinates. -/
theorem sum_filter_mid {M : Type*} [AddCommMonoid M] {n0 n1 n2 : Nat} (x : (⟨3, ![n0, n1, n2]⟩ : Shape).Idx → M)
    (k : Fin n1) (p : (⟨3, ![n0, n1, n2]⟩ : Shape).Idx → Prop) [DecidablePred p] (hp : ∀ i, p i ↔ i 1 = k) :
    ∑ i ∈ Finset.univ.filter p, x i = ∑ a : Fin n0, ∑ c : Fin n2, x (ix3 a k c) := by
  rw [Finset.sum_filter, sum_idx3]
  refine Finset.sum_congr rfl fun a _ => ?_
  rw [Finset.sum_eq_single k]
  · refine Finset.sum_congr rfl fun c _ => ?_
    rw [if_pos ((hp _).mpr rfl)]
  · intro b _ hb
    refine Finset.sum_eq_zero fun c _ => ?_
    rw [if_neg (fun h => hb ((hp _).mp h))]
  · intro h
    exact absurd (Finset.mem_univ k) h

/-- Dropping the axes 0 and 2 of a rank-3 index leaves its middle coordinate. -/
theorem drop_02_iff {n0 n1 n2 : Nat} (h : (⟨3, ![n0, n1, n2]⟩ : Shape).ReducesTo [0, 2] ⟨1, ![n1]⟩)
    (i : (⟨3, ![n0, n1, n2]⟩ : Shape).Idx) (k : Fin n1) : h.drop i = ix1 k ↔ i 1 = k := by
  constructor
  · intro e
    have := congrArg (fun j : (⟨1, ![n1]⟩ : Shape).Idx => (j 0).val) e
    exact Fin.ext this
  · intro e
    funext b
    match b with
    | ⟨0, _⟩ => exact Fin.ext (congrArg Fin.val e)

/-- The host's sum over the axes 0 and 2 of a rank-3 array, at class `k`. -/
theorem hostSum_02 {n0 n1 n2 : Nat} (h : (⟨3, ![n0, n1, n2]⟩ : Shape).ReducesTo [0, 2] ⟨1, ![n1]⟩)
    (x : (⟨3, ![n0, n1, n2]⟩ : Shape).Idx → EReal) (init : EReal) (k : Fin n1) :
    Ideal.hostReduceAdd h x init (ix1 k) = init + ∑ a : Fin n0, ∑ c : Fin n2, x (ix3 a k c) := by
  unfold Ideal.hostReduceAdd
  rw [sum_filter_mid x k _ (fun i => drop_02_iff h i k)]

end Cert.LibTiles

end
-- ==== Proof.Ideal.Blocks.lean ====
/-
  Where a window's block sits in its array. The first pallas_call's point `t` has inner coordinate `t % 16` (a tile
  of 512 nodes) and outer coordinate `t / 16` (a tile of 2048 edges); the second's has outer coordinate `t / 8`
  (a tile of 512 nodes) and inner coordinate `t % 8` (a tile of 2048 edges). An entry of a block at local coordinates is
  the array's entry at the tile's offset plus those coordinates.
-/
import proofs.«105642_j77137612636506_2_alg».proof.Proof.Ideal.R0
import proofs.«105642_j77137612636506_2_alg».proof.Proof.Ideal.R1
import proofs.«105642_j77137612636506_2_alg».proof.Proof.LibTiles
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.LibTiles

theorem idx0 : ∀ t : Fin cfg0.N,
    win0_0.index t (0 : Fin 2) = t.val % 16 ∧ win0_0.index t (1 : Fin 2) = t.val / 16
    ∧ win0_1.index t (0 : Fin 2) = t.val % 16 ∧ win0_1.index t (1 : Fin 2) = t.val / 16
    ∧ win0_2.index t (0 : Fin 2) = t.val % 16 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

theorem idx1 : ∀ t : Fin cfg1.N,
    win1_0.index t (0 : Fin 2) = t.val / 8 ∧ win1_0.index t (1 : Fin 2) = t.val % 8
    ∧ win1_1.index t (0 : Fin 2) = t.val / 8 ∧ win1_1.index t (1 : Fin 2) = t.val % 8
    ∧ win1_2.index t (0 : Fin 2) = t.val % 8 ∧ win1_2.index t (1 : Fin 2) = 0
    ∧ win1_3.index t (0 : Fin 2) = t.val % 8 ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

/-- The 8192 nodes as 16 tiles of 512, and the 16384 edges as 8 tiles of 2048. -/
abbrev nodeAt (j : Fin 16) (r : Fin 512) : Fin 8192 := tilePos (J := 16) (L := 512) (S := 8192) rfl j r
abbrev edgeAt (q : Fin 8) (k : Fin 2048) : Fin 16384 := tilePos (J := 8) (L := 2048) (S := 16384) rfl q k

section
variable (V : (c : Dev nD) → (b : Ref sig .tc) → Buf (Elt F) ((c : Thread nD τ).loc b))

/-! ## First pallas_call: point `16 q + j` -/

theorem iblk0_0_apply (c : Dev nD) (t : Fin cfg0.N) (q : Fin 8) (j : Fin 16) (ht : t.val = 16 * q.val + j.val) (r : Fin 512) (k : Fin 2048) :
    iblk0 V c 0 t (ix2 r k) = V c main_arg2 (ix2 (nodeAt j r) (edgeAt q k)) := by
  obtain ⟨e0, e1, -⟩ := idx0 t
  show V c main_arg2 (((cfg0.win 0).blk t).view.emb (ix2 r k)) = _
  refine congrArg (V c main_arg2) (funext fun a => Fin.ext ?_)
  match a with
  | ⟨0, _⟩ => show win0_0.index t (0 : Fin 2) * 512 + 1 * r.val = r.val + 512 * j.val; rw [e0]; omega
  | ⟨1, _⟩ => show win0_0.index t (1 : Fin 2) * 2048 + 1 * k.val = k.val + 2048 * q.val; rw [e1]; omega

theorem iblk0_1_apply (c : Dev nD) (t : Fin cfg0.N) (q : Fin 8) (j : Fin 16) (ht : t.val = 16 * q.val + j.val) (r : Fin 512) (k : Fin 2048) :
    iblk0 V c 1 t (ix2 r k) = V c main_arg3 (ix2 (nodeAt j r) (edgeAt q k)) := by
  obtain ⟨-, -, e0, e1, -⟩ := idx0 t
  show V c main_arg3 (((cfg0.win 1).blk t).view.emb (ix2 r k)) = _
  refine congrArg (V c main_arg3) (funext fun a => Fin.ext ?_)
  match a with
  | ⟨0, _⟩ => show win0_1.index t (0 : Fin 2) * 512 + 1 * r.val = r.val + 512 * j.val; rw [e0]; omega
  | ⟨1, _⟩ => show win0_1.index t (1 : Fin 2) * 2048 + 1 * k.val = k.val + 2048 * q.val; rw [e1]; omega

theorem iblk0_2_apply (c : Dev nD) (t : Fin cfg0.N) (q : Fin 8) (j : Fin 16) (ht : t.val = 16 * q.val + j.val) (r : Fin 512) (d : Fin 4) :
    iblk0 V c 2 t (ix2 r d) = V c main_arg0 (ix2 (nodeAt j r) d) := by
  obtain ⟨-, -, -, -, e0, e1, -⟩ := idx0 t
  show V c main_arg0 (((cfg0.win 2).blk t).view.emb (ix2 r d)) = _
  refine congrArg (V c main_arg0) (funext fun a => Fin.ext ?_)
  match a with
  | ⟨0, _⟩ => show win0_2.index t (0 : Fin 2) * 512 + 1 * r.val = r.val + 512 * j.val; rw [e0]; omega
  | ⟨1, _⟩ => show win0_2.index t (1 : Fin 2) * 4 + 1 * d.val = d.val; rw [e1]; omega

/-! ## Second pallas_call: point `8 p + q` -/

theorem iblk1_0_apply (c : Dev nD) (t : Fin cfg1.N) (p : Fin 16) (q : Fin 8) (ht : t.val = 8 * p.val + q.val) (r : Fin 512) (k : Fin 2048) :
    iblk1 V c 0 t (ix2 r k) = V c main_arg2 (ix2 (nodeAt p r) (edgeAt q k)) := by
  obtain ⟨e0, e1, -⟩ := idx1 t
  show V c main_arg2 (((cfg1.win 0).blk t).view.emb (ix2 r k)) = _
  refine congrArg (V c main_arg2) (funext fun a => Fin.ext ?_)
  match a with
  | ⟨0, _⟩ => show win1_0.index t (0 : Fin 2) * 512 + 1 * r.val = r.val + 512 * p.val; rw [e0]; omega
  | ⟨1, _⟩ => show win1_0.index t (1 : Fin 2) * 2048 + 1 * k.val = k.val + 2048 * q.val; rw [e1]; omega

theorem iblk1_1_apply (c : Dev nD) (t : Fin cfg1.N) (p : Fin 16) (q : Fin 8) (ht : t.val = 8 * p.val + q.val) (r : Fin 512) (k : Fin 2048) :
    iblk1 V c 1 t (ix2 r k) = V c main_arg3 (ix2 (nodeAt p r) (edgeAt q k)) := by
  obtain ⟨-, -, e0, e1, -⟩ := idx1 t
  show V c main_arg3 (((cfg1.win 1).blk t).view.emb (ix2 r k)) = _
  refine congrArg (V c main_arg3) (funext fun a => Fin.ext ?_)
  match a with
  | ⟨0, _⟩ => show win1_1.index t (0 : Fin 2) * 512 + 1 * r.val = r.val + 512 * p.val; rw [e0]; omega
  | ⟨1, _⟩ => show win1_1.index t (1 : Fin 2) * 2048 + 1 * k.val = k.val + 2048 * q.val; rw [e1]; omega

theorem iblk1_2_apply (c : Dev nD) (t : Fin cfg1.N) (p : Fin 16) (q : Fin 8) (ht : t.val = 8 * p.val + q.val) (k : Fin 2048) (d : Fin 4) :
    iblk1 V c 2 t (ix2 k d) = V c main_v2 (ix2 (edgeAt q k) d) := by
  obtain ⟨-, -, -, -, e0, e1, -⟩ := idx1 t
  show V c main_v2 (((cfg1.win 2).blk t).view.emb (ix2 k d)) = _
  refine congrArg (V c main_v2) (funext fun a => Fin.ext ?_)
  match a with
  | ⟨0, _⟩ => show win1_2.index t (0 : Fin 2) * 2048 + 1 * k.val = k.val + 2048 * q.val; rw [e0]; omega
  | ⟨1, _⟩ => show win1_2.index t (1 : Fin 2) * 4 + 1 * d.val = d.val; rw [e1]; omega

theorem iblk1_3_apply (c : Dev nD) (t : Fin cfg1.N) (p : Fin 16) (q : Fin 8) (ht : t.val = 8 * p.val + q.val) (k : Fin 2048) (d : Fin 4) :
    iblk1 V c 3 t (ix2 k d) = V c main_v4 (ix2 (edgeAt q k) d) := by
  obtain ⟨-, -, -, -, -, -, e0, e1, -⟩ := idx1 t
  show V c main_v4 (((cfg1.win 3).blk t).view.emb (ix2 k d)) = _
  refine congrArg (V c main_v4) (funext fun a => Fin.ext ?_)
  match a with
  | ⟨0, _⟩ => show win1_3.index t (0 : Fin 2) * 2048 + 1 * k.val = k.val + 2048 * q.val; rw [e0]; omega
  | ⟨1, _⟩ => show win1_3.index t (1 : Fin 2) * 4 + 1 * d.val = d.val; rw [e1]; omega

end

end Cert.KernelIdeal.Hand

end
-- ==== Proof.Ideal.Pay.lean ====
/-
  The arithmetic of the two kernel bodies, read at an index at the extended reals. The first kernel's body adds to
  each of its two accumulators the product of the transposed incidence block with the feature block — the contraction
  runs over the FIRST axis of both operands —; the second kernel's adds the product of the incidence block with the
  weighted edge block. A change of float format is the identity on the extended reals, a shape cast to the same shape
  is the identity, and the matrix product onto the zero accumulator is the plain sum of the products.
-/
import proofs.«105642_j77137612636506_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The zero fills -/

/-- The zero word is the extended real zero. -/
theorem zero_word : Scalar.ofBits (F := Ideal) .f32 0x00000000#32 = 0 := Ideal.ofBits_zero_f32

theorem k0_pay1_apply (k : Fin 2048) (d : Fin 4) : Gen.k0_pay1 (F := Ideal) (ix2 k d) = 0 := zero_word
theorem k0_pay2_apply (k : Fin 2048) (d : Fin 4) : Gen.k0_pay2 (F := Ideal) (ix2 k d) = 0 := zero_word
theorem k1_pay1_apply (r : Fin 512) (d : Fin 4) : Gen.k1_pay1 (F := Ideal) (ix2 r d) = 0 := zero_word
theorem k1_pay2_apply (r : Fin 512) (d : Fin 4) : Gen.k1_pay2 (F := Ideal) (ix2 r d) = 0 := zero_word

/-! ## The first kernel's product: both operands contracted over their first axis -/

theorem lhs0_0 (i : S2048x4.Idx) (q : dot_S512x2048_S512x4_S2048x4_0_0_1_1_n_n.contr.Idx) :
    (dot_S512x2048_S512x4_S2048x4_0_0_1_1_n_n.lhsIdx i q 0).val = (q ⟨0, by decide⟩).val :=
  dot_S512x2048_S512x4_S2048x4_0_0_1_1_n_n.lhsIdx_val_of_single rfl i q
theorem lhs0_1 (i : S2048x4.Idx) (q : dot_S512x2048_S512x4_S2048x4_0_0_1_1_n_n.contr.Idx) :
    (dot_S512x2048_S512x4_S2048x4_0_0_1_1_n_n.lhsIdx i q 1).val = (i 0).val := by
  unfold DotDims.lhsIdx
  rw [dif_neg (show ¬(1 : Fin S512x2048.rank) ∈ dot_S512x2048_S512x4_S2048x4_0_0_1_1_n_n.lhsBatch by decide),
    dif_pos (show (1 : Fin S512x2048.rank) ∈ dot_S512x2048_S512x4_S2048x4_0_0_1_1_n_n.lhsNonContracting by decide)]
  rfl
theorem rhs0_0 (i : S2048x4.Idx) (q : dot_S512x2048_S512x4_S2048x4_0_0_1_1_n_n.contr.Idx) :
    (dot_S512x2048_S512x4_S2048x4_0_0_1_1_n_n.rhsIdx i q 0).val = (q ⟨0, by decide⟩).val :=
  dot_S512x2048_S512x4_S2048x4_0_0_1_1_n_n.rhsIdx_val_of_single rfl i q
theorem rhs0_1 (i : S2048x4.Idx) (q : dot_S512x2048_S512x4_S2048x4_0_0_1_1_n_n.contr.Idx) :
    (dot_S512x2048_S512x4_S2048x4_0_0_1_1_n_n.rhsIdx i q 1).val = (i 1).val := by
  unfold DotDims.rhsIdx
  rw [dif_neg (show ¬(1 : Fin S512x4.rank) ∈ dot_S512x2048_S512x4_S2048x4_0_0_1_1_n_n.rhsBatch by decide),
    dif_pos (show (1 : Fin S512x4.rank) ∈ dot_S512x2048_S512x4_S2048x4_0_0_1_1_n_n.rhsNonContracting by decide)]
  rfl

/-- The first kernel's product onto the zero accumulator, at an edge `k` and a feature `d`: the sum over the rows
    `r` of the block of the incidence entry (r, k) times the feature entry (r, d). -/
theorem mm0_apply {φ₁ φ₂ : FTy} (a : FVec Ideal S512x2048 φ₁) (b : FVec Ideal S512x4 φ₂) (k : Fin 2048) (d : Fin 4) :
    matmul (F := Ideal) dot_S512x2048_S512x4_S2048x4_0_0_1_1_n_n none a b (constant S2048x4 .f32 0x00000000#32) (ix2 k d)
      = ∑ r : Fin 512, a (ix2 r k) * b (ix2 r d) := by
  simp only [matmul]
  rw [Ideal.matmul_constant_zero_apply,
    ← Equiv.sum_comp (contrEquiv1 dot_S512x2048_S512x4_S2048x4_0_0_1_1_n_n 512 rfl rfl).symm]
  refine Finset.sum_congr rfl fun r _ => ?_
  have hk := contrEquiv1_symm_val dot_S512x2048_S512x4_S2048x4_0_0_1_1_n_n 512 rfl rfl r
  have el : dot_S512x2048_S512x4_S2048x4_0_0_1_1_n_n.lhsIdx (ix2 k d)
      ((contrEquiv1 dot_S512x2048_S512x4_S2048x4_0_0_1_1_n_n 512 rfl rfl).symm r) = ix2 r k :=
    funext fun c => Fin.ext (by
      match c with
      | ⟨0, _⟩ => exact (lhs0_0 _ _).trans hk
      | ⟨1, _⟩ => exact lhs0_1 _ _)
  have er : dot_S512x2048_S512x4_S2048x4_0_0_1_1_n_n.rhsIdx (ix2 k d)
      ((contrEquiv1 dot_S512x2048_S512x4_S2048x4_0_0_1_1_n_n 512 rfl rfl).symm r) = ix2 r d :=
    funext fun c => Fin.ext (by
      match c with
      | ⟨0, _⟩ => exact (rhs0_0 _ _).trans hk
      | ⟨1, _⟩ => exact rhs0_1 _ _)
  rw [el, er]

/-- The first kernel's first accumulator update at an edge and a feature: the accumulator there plus the block's
    contribution to the gathered sum. -/
theorem k0_pay4_apply (x0 : Vec Ideal S512x2048 .f32) (x2 : Vec Ideal S512x4 .f32) (acc : Vec Ideal S2048x4 .f32)
    (k : Fin 2048) (d : Fin 4) :
    Gen.k0_pay4 (F := Ideal) x0 x2 acc (ix2 k d) = acc (ix2 k d) + ∑ r : Fin 512, x0 (ix2 r k) * x2 (ix2 r d) := by
  unfold Gen.k0_pay4 Gen.k0_pay3
  refine (addf_apply _ _ _).trans ?_
  rw [shapeCast_self, mm0_apply]
  rfl

/-- The same for the second accumulator, on the second incidence block. -/
theorem k0_pay5_apply (x1 : Vec Ideal S512x2048 .f32) (x2 : Vec Ideal S512x4 .f32) (acc : Vec Ideal S2048x4 .f32)
    (k : Fin 2048) (d : Fin 4) :
    Gen.k0_pay5 (F := Ideal) x1 x2 acc (ix2 k d) = acc (ix2 k d) + ∑ r : Fin 512, x1 (ix2 r k) * x2 (ix2 r d) := by
  unfold Gen.k0_pay5 Gen.k0_pay3
  refine (addf_apply _ _ _).trans ?_
  rw [shapeCast_self, mm0_apply]
  rfl

/-! ## The second kernel's product: rows by columns -/

theorem lhs1_0 (i : S512x4.Idx) (q : dot_S512x2048_S2048x4_S512x4_1_0_0_1_n_n.contr.Idx) :
    (dot_S512x2048_S2048x4_S512x4_1_0_0_1_n_n.lhsIdx i q 0).val = (i 0).val := by
  unfold DotDims.lhsIdx
  rw [dif_neg (show ¬(0 : Fin S512x2048.rank) ∈ dot_S512x2048_S2048x4_S512x4_1_0_0_1_n_n.lhsBatch by decide),
    dif_pos (show (0 : Fin S512x2048.rank) ∈ dot_S512x2048_S2048x4_S512x4_1_0_0_1_n_n.lhsNonContracting by decide)]
  rfl
theorem lhs1_1 (i : S512x4.Idx) (q : dot_S512x2048_S2048x4_S512x4_1_0_0_1_n_n.contr.Idx) :
    (dot_S512x2048_S2048x4_S512x4_1_0_0_1_n_n.lhsIdx i q 1).val = (q ⟨0, by decide⟩).val :=
  dot_S512x2048_S2048x4_S512x4_1_0_0_1_n_n.lhsIdx_val_of_single rfl i q
theorem rhs1_0 (i : S512x4.Idx) (q : dot_S512x2048_S2048x4_S512x4_1_0_0_1_n_n.contr.Idx) :
    (dot_S512x2048_S2048x4_S512x4_1_0_0_1_n_n.rhsIdx i q 0).val = (q ⟨0, by decide⟩).val :=
  dot_S512x2048_S2048x4_S512x4_1_0_0_1_n_n.rhsIdx_val_of_single rfl i q
theorem rhs1_1 (i : S512x4.Idx) (q : dot_S512x2048_S2048x4_S512x4_1_0_0_1_n_n.contr.Idx) :
    (dot_S512x2048_S2048x4_S512x4_1_0_0_1_n_n.rhsIdx i q 1).val = (i 1).val := by
  unfold DotDims.rhsIdx
  rw [dif_neg (show ¬(1 : Fin S2048x4.rank) ∈ dot_S512x2048_S2048x4_S512x4_1_0_0_1_n_n.rhsBatch by decide),
    dif_pos (show (1 : Fin S2048x4.rank) ∈ dot_S512x2048_S2048x4_S512x4_1_0_0_1_n_n.rhsNonContracting by decide)]
  rfl

/-- The second kernel's product onto the zero accumulator, at a node `r` of the block and a feature `d`: the sum
    over the edges `k` of the block of the incidence entry (r, k) times the edge entry (k, d). -/
theorem mm1_apply {φ₁ φ₂ : FTy} (a : FVec Ideal S512x2048 φ₁) (b : FVec Ideal S2048x4 φ₂) (r : Fin 512) (d : Fin 4) :
    matmul (F := Ideal) dot_S512x2048_S2048x4_S512x4_1_0_0_1_n_n none a b (constant S512x4 .f32 0x00000000#32) (ix2 r d)
      = ∑ k : Fin 2048, a (ix2 r k) * b (ix2 k d) := by
  simp only [matmul]
  rw [Ideal.matmul_constant_zero_apply,
    ← Equiv.sum_comp (contrEquiv1 dot_S512x2048_S2048x4_S512x4_1_0_0_1_n_n 2048 rfl rfl).symm]
  refine Finset.sum_congr rfl fun k _ => ?_
  have hk := contrEquiv1_symm_val dot_S512x2048_S2048x4_S512x4_1_0_0_1_n_n 2048 rfl rfl k
  have el : dot_S512x2048_S2048x4_S512x4_1_0_0_1_n_n.lhsIdx (ix2 r d)
      ((contrEquiv1 dot_S512x2048_S2048x4_S512x4_1_0_0_1_n_n 2048 rfl rfl).symm k) = ix2 r k :=
    funext fun c => Fin.ext (by
      match c with
      | ⟨0, _⟩ => exact lhs1_0 _ _
      | ⟨1, _⟩ => exact (lhs1_1 _ _).trans hk)
  have er : dot_S512x2048_S2048x4_S512x4_1_0_0_1_n_n.rhsIdx (ix2 r d)
      ((contrEquiv1 dot_S512x2048_S2048x4_S512x4_1_0_0_1_n_n 2048 rfl rfl).symm k) = ix2 k d :=
    funext fun c => Fin.ext (by
      match c with
      | ⟨0, _⟩ => exact (rhs1_0 _ _).trans hk
      | ⟨1, _⟩ => exact rhs1_1 _ _)
  rw [el, er]

/-- The second kernel's first accumulator update at a node and a feature: the accumulator there plus the block's
    contribution to the scattered sum. -/
theorem k1_pay3_apply (x0 : Vec Ideal S512x2048 .f32) (x2 : Vec Ideal S2048x4 .f32) (acc : Vec Ideal S512x4 .f32)
    (r : Fin 512) (d : Fin 4) :
    Gen.k1_pay3 (F := Ideal) x0 x2 acc (ix2 r d) = acc (ix2 r d) + ∑ k : Fin 2048, x0 (ix2 r k) * x2 (ix2 k d) := by
  unfold Gen.k1_pay3
  refine (addf_apply _ _ _).trans ?_
  rw [shapeCast_self, mm1_apply, shapeCast_self]
  rfl

/-- The same for the second accumulator, on the second incidence block and the second edge block. -/
theorem k1_pay4_apply (x1 : Vec Ideal S512x2048 .f32) (x3 : Vec Ideal S2048x4 .f32) (acc : Vec Ideal S512x4 .f32)
    (r : Fin 512) (d : Fin 4) :
    Gen.k1_pay4 (F := Ideal) x1 x3 acc (ix2 r d) = acc (ix2 r d) + ∑ k : Fin 2048, x1 (ix2 r k) * x3 (ix2 k d) := by
  unfold Gen.k1_pay4
  refine (addf_apply _ _ _).trans ?_
  rw [shapeCast_self, mm1_apply, shapeCast_self]
  rfl

end Cert.KernelIdeal.Pay

end
-- ==== Proof.Spec.lean ====
/-
  The node-network messages, as plain sums of extended reals. For an incidence array `R` (nodes by edges), node
  features `X` (nodes by 4) and edge weights `w` (edges by 1):
    edgeSum R X e d   = Σ_n R(n,e) · X(n,d)                       the features gathered at edge e,
    msg R R' X w n d  = Σ_e R(n,e) · ( w(e) · edgeSum R' X e d )  the weighted messages scattered back to node n.
  The same message with the weight multiplied into the incidence entry first, Σ_e (R(n,e) · w(e)) · edgeSum R' X e d,
  is equal to it term by term, by associativity of the product of extended reals (which holds with the infinities:
  the extended reals are a commutative monoid with zero under multiplication) — no finiteness is used.
-/
import Idealize.ShloMosaic.PureOps.Ideal
import Idealize.ShloMosaic.PureOps.Ideal.Laws
import Idealize.ShloMosaic.Lib.ValueIdx

noncomputable section

open scoped BigOperators

namespace Cert.NodeNet

open Idealize.ShloMosaic Idealize.ShloMosaic.ValueIdx

/-- A rank-2 array of extended reals, as a function of its index. -/
abbrev Arr (n0 n1 : Nat) : Type := (⟨2, ![n0, n1]⟩ : Shape).Idx → EReal

/-- The features gathered at edge `e`: the sum over the nodes of the incidence entry times the feature. -/
def edgeSum (R : Arr 8192 16384) (X : Arr 8192 4) (e : Fin 16384) (d : Fin 4) : EReal :=
  ∑ n : Fin 8192, R (ix2 n e) * X (ix2 n d)

/-- The message at node `n`: the sum over the edges of the incidence entry times the weighted gathered features. -/
def msg (R R' : Arr 8192 16384) (X : Arr 8192 4) (w : Arr 16384 1) (n : Fin 8192) (d : Fin 4) : EReal :=
  ∑ e : Fin 16384, R (ix2 n e) * (w (ix2 e 0) * edgeSum R' X e d)

/-- The messages as an array over the nodes and the features. -/
def msgArr (R R' : Arr 8192 16384) (X : Arr 8192 4) (w : Arr 16384 1) : Arr 8192 4 :=
  fun j => msg R R' X w (j 0) (j 1)

/-- The message with the weight multiplied into the incidence entry first: the same sum, by associativity. -/
theorem msg_assoc (R R' : Arr 8192 16384) (X : Arr 8192 4) (w : Arr 16384 1) (n : Fin 8192) (d : Fin 4) :
    ∑ e : Fin 16384, (R (ix2 n e) * w (ix2 e 0)) * edgeSum R' X e d = msg R R' X w n d := by
  unfold msg
  exact Finset.sum_congr rfl fun e _ => mul_assoc _ _ _

/-- The message array at an index given by its coordinates. -/
theorem msgArr_apply (R R' : Arr 8192 16384) (X : Arr 8192 4) (w : Arr 16384 1) (n : Fin 8192) (d : Fin 4) :
    msgArr R R' X w (ix2 n d) = msg R R' X w n d := rfl

/-! ## Prefix sums

The sum of the first terms of a finite family, by the number of the last term taken: what an accumulation over
consecutive steps holds after each step. -/

section Pref
variable {M : Type*} [AddCommMonoid M] {J : Nat}

/-- The sum of the terms `g 0, …, g j` (all of them once `j` reaches the last). -/
def pref (g : Fin J → M) (j : Nat) : M := ∑ j' ∈ Finset.univ.filter (fun j' : Fin J => j'.val ≤ j), g j'

/-- The prefix sum up to the first term is the first term. -/
theorem pref_zero (g : Fin J → M) (hJ : 0 < J) : pref g 0 = g ⟨0, hJ⟩ := by
  unfold pref
  have hs : Finset.univ.filter (fun j' : Fin J => j'.val ≤ 0) = {⟨0, hJ⟩} := by
    ext a
    simp only [Finset.mem_filter, Finset.mem_univ, true_and, Finset.mem_singleton, Fin.ext_iff]
    omega
  rw [hs, Finset.sum_singleton]

/-- One more term: the prefix sum up to `j + 1` is the one up to `j` plus the term `j + 1`. -/
theorem pref_succ (g : Fin J → M) (j : Nat) (h : j + 1 < J) : pref g (j + 1) = pref g j + g ⟨j + 1, h⟩ := by
  unfold pref
  have hs : Finset.univ.filter (fun j' : Fin J => j'.val ≤ j + 1)
      = insert (⟨j + 1, h⟩ : Fin J) (Finset.univ.filter (fun j' : Fin J => j'.val ≤ j)) := by
    ext a
    simp only [Finset.mem_filter, Finset.mem_univ, true_and, Finset.mem_insert, Fin.ext_iff]
    omega
  have hn : (⟨j + 1, h⟩ : Fin J) ∉ Finset.univ.filter (fun j' : Fin J => j'.val ≤ j) := by
    simp only [Finset.mem_filter, Finset.mem_univ, true_and]
    omega
  rw [hs, Finset.sum_insert hn, add_comm]

/-- From the last term on, the prefix sum is the whole sum. -/
theorem pref_last (g : Fin J → M) (j : Nat) (h : J ≤ j + 1) : pref g j = ∑ j', g j' := by
  unfold pref
  rw [Finset.filter_true_of_mem]
  intro a _
  have := a.isLt
  omega

end Pref

end Cert.NodeNet

end
-- ==== Proof.Ideal.Acc0.lean ====
/-
  First pallas_call at the exact values: what its two result arrays end holding.

  After point `16 q + j` the output buffers hold, at row `k` and column `d`, the sum over the node tiles `0 … j` of the
  tile's share `Σ_r R(512 j' + r, 2048 q + k) · X(512 j' + r, d)` of the column sum (`R` the first incidence array for
  the first buffer, the second for the second): the zero block is the additive unit, every later point adds its tile.
  After `j = 15` that is the whole sum over the 8192 nodes, and it is then that the block is written back, to rows
  `2048 q …` of the result array; the eight blocks tile it.
-/
import proofs.«105642_j77137612636506_2_alg».proof.Proof.Ideal.Vals
import proofs.«105642_j77137612636506_2_alg».proof.Proof.Ideal.Blocks
import proofs.«105642_j77137612636506_2_alg».proof.Proof.Ideal.Pay
import proofs.«105642_j77137612636506_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LibTiles Cert.NodeNet Cert.KernelIdeal.Pay

section
variable (V : (c : Dev nD) → (b : Ref sig .tc) → Buf (Elt Ideal) ((c : Thread nD τ).loc b))

/-- The arrays the first call reads, as the call finds them. -/
abbrev aX (c : Dev nD) : S8192x4.Idx → EReal := V c main_arg0
abbrev aRi (c : Dev nD) : S8192x16384.Idx → EReal := V c main_arg2
abbrev aRo (c : Dev nD) : S8192x16384.Idx → EReal := V c main_arg3

/-- Node tile `j`'s share of the column sum at edge `e`, feature `d`. -/
def nodeTile (R : S8192x16384.Idx → EReal) (X : S8192x4.Idx → EReal) (e : Fin 16384) (d : Fin 4) (j : Fin 16) : EReal :=
  ∑ r : Fin 512, R (ix2 (nodeAt j r) e) * X (ix2 (nodeAt j r) d)

/-- The column sum is the sum of the 16 tiles' shares. -/
theorem sum_nodeTile (R : S8192x16384.Idx → EReal) (X : S8192x4.Idx → EReal) (e : Fin 16384) (d : Fin 4) :
    ∑ j : Fin 16, nodeTile R X e d j = edgeSum R X e d := by
  unfold nodeTile edgeSum
  exact (sum_row_tiles (J := 16) (L := 512) (S := 8192) rfl fun n => R (ix2 n e) * X (ix2 n d)).symm

theorem pt0 (q : Fin 8) (j : ℕ) (hj : j < 16) : 16 * q.val + j < cfg0.N := by
  have := q.isLt; rw [show cfg0.N = 128 from N_0]; omega

/-- A point's product is its node tile's share, once its two blocks are read where they sit in the arrays. -/
theorem tile_sum (x0 : Vec Ideal S512x2048 .f32) (x2 : Vec Ideal S512x4 .f32) (R : S8192x16384.Idx → EReal) (X : S8192x4.Idx → EReal)
    (e : Fin 16384) (k : Fin 2048) (d : Fin 4) (j : Fin 16)
    (h0 : ∀ r : Fin 512, x0 (ix2 r k) = R (ix2 (nodeAt j r) e)) (h2 : ∀ r : Fin 512, x2 (ix2 r d) = X (ix2 (nodeAt j r) d)) :
    (∑ r : Fin 512, x0 (ix2 r k) * x2 (ix2 r d)) = nodeTile R X e d j := by
  unfold nodeTile
  exact Finset.sum_congr rfl fun r _ => by rw [h0 r, h2 r]

/-- THE ACCUMULATION in closed form: after point `16 q + j` the buffers hold the prefix sums over the node tiles. -/
theorem acc0 (c : Dev nD) (q : Fin 8) : ∀ (j : ℕ) (hj : j < 16) (k : Fin 2048) (d : Fin 4),
    (outsAt0 V c (16 * q.val + j) (pt0 q j hj)).1 (ix2 k d) = pref (nodeTile (aRi V c) (aX V c) (edgeAt q k) d) j
    ∧ (outsAt0 V c (16 * q.val + j) (pt0 q j hj)).2 (ix2 k d) = pref (nodeTile (aRo V c) (aX V c) (edgeAt q k) d) j
  | 0, hj, k, d => by
    have hq := q.isLt
    have ht : (⟨16 * q.val + 0, pt0 q 0 hj⟩ : Fin cfg0.N).val = 16 * q.val + (⟨0, hj⟩ : Fin 16).val := rfl
    have h0 : (⟨16 * q.val + 0, pt0 q 0 hj⟩ : Fin cfg0.N).val % 16 = 0 := by show (16 * q.val + 0) % 16 = 0; omega
    have e := outsAt0_start V c ⟨16 * q.val + 0, pt0 q 0 hj⟩ h0
    constructor
    · refine (congrArg (fun p => p.1 (ix2 k d)) e).trans ?_
      refine (k0_pay4_apply (iblk0 V c 0 ⟨16 * q.val + 0, pt0 q 0 hj⟩) (iblk0 V c 2 ⟨16 * q.val + 0, pt0 q 0 hj⟩) (k0_pay1 (F := Ideal)) k d).trans ?_
      rw [k0_pay1_apply, zero_add, pref_zero _ (by decide)]
      exact tile_sum (iblk0 V c 0 ⟨16 * q.val + 0, pt0 q 0 hj⟩) (iblk0 V c 2 ⟨16 * q.val + 0, pt0 q 0 hj⟩) (aRi V c) (aX V c) (edgeAt q k) k d ⟨0, hj⟩
        (fun r => iblk0_0_apply V c _ q ⟨0, hj⟩ ht r k) (fun r => iblk0_2_apply V c _ q ⟨0, hj⟩ ht r d)
    · refine (congrArg (fun p => p.2 (ix2 k d)) e).trans ?_
      refine (k0_pay5_apply (iblk0 V c 1 ⟨16 * q.val + 0, pt0 q 0 hj⟩) (iblk0 V c 2 ⟨16 * q.val + 0, pt0 q 0 hj⟩) (k0_pay2 (F := Ideal)) k d).trans ?_
      rw [k0_pay2_apply, zero_add, pref_zero _ (by decide)]
      exact tile_sum (iblk0 V c 1 ⟨16 * q.val + 0, pt0 q 0 hj⟩) (iblk0 V c 2 ⟨16 * q.val + 0, pt0 q 0 hj⟩) (aRo V c) (aX V c) (edgeAt q k) k d ⟨0, hj⟩
        (fun r => iblk0_1_apply V c _ q ⟨0, hj⟩ ht r k) (fun r => iblk0_2_apply V c _ q ⟨0, hj⟩ ht r d)
  | j + 1, hj, k, d => by
    have hq := q.isLt
    have hj' : j < 16 := by omega
    have ht : (⟨16 * q.val + (j + 1), pt0 q (j + 1) hj⟩ : Fin cfg0.N).val = 16 * q.val + (⟨j + 1, hj⟩ : Fin 16).val := rfl
    have h0 : ¬(⟨16 * q.val + (j + 1), pt0 q (j + 1) hj⟩ : Fin cfg0.N).val % 16 = 0 := by
      show ¬(16 * q.val + (j + 1)) % 16 = 0; omega
    have e := outsAt0_step V c ⟨16 * q.val + (j + 1), pt0 q (j + 1) hj⟩ h0
    obtain ⟨ih1, ih2⟩ := acc0 c q j hj' k d
    constructor
    · refine (congrArg (fun p => p.1 (ix2 k d)) e).trans ?_
      refine (k0_pay4_apply (iblk0 V c 0 ⟨16 * q.val + (j + 1), pt0 q (j + 1) hj⟩) (iblk0 V c 2 ⟨16 * q.val + (j + 1), pt0 q (j + 1) hj⟩) _ k d).trans ?_
      rw [pref_succ _ j hj]
      exact congrArg₂ (· + ·) ih1 (tile_sum (iblk0 V c 0 ⟨16 * q.val + (j + 1), pt0 q (j + 1) hj⟩) (iblk0 V c 2 ⟨16 * q.val + (j + 1), pt0 q (j + 1) hj⟩) (aRi V c) (aX V c) (edgeAt q k) k d ⟨j + 1, hj⟩
        (fun r => iblk0_0_apply V c _ q ⟨j + 1, hj⟩ ht r k) (fun r => iblk0_2_apply V c _ q ⟨j + 1, hj⟩ ht r d))
    · refine (congrArg (fun p => p.2 (ix2 k d)) e).trans ?_
      refine (k0_pay5_apply (iblk0 V c 1 ⟨16 * q.val + (j + 1), pt0 q (j + 1) hj⟩) (iblk0 V c 2 ⟨16 * q.val + (j + 1), pt0 q (j + 1) hj⟩) _ k d).trans ?_
      rw [pref_succ _ j hj]
      exact congrArg₂ (· + ·) ih2 (tile_sum (iblk0 V c 1 ⟨16 * q.val + (j + 1), pt0 q (j + 1) hj⟩) (iblk0 V c 2 ⟨16 * q.val + (j + 1), pt0 q (j + 1) hj⟩) (aRo V c) (aX V c) (edgeAt q k) k d ⟨j + 1, hj⟩
        (fun r => iblk0_1_apply V c _ q ⟨j + 1, hj⟩ ht r k) (fun r => iblk0_2_apply V c _ q ⟨j + 1, hj⟩ ht r d))

/-! ## From the blocks to the arrays -/

/-- The column sums as an array over (edge, feature). -/
def colSums (R : S8192x16384.Idx → EReal) (X : S8192x4.Idx → EReal) : S16384x4.Idx → EReal :=
  fun i => edgeSum R X (i 0) (i 1)

/-- A flushing point is the last of an edge tile. -/
theorem flush_pt0 (t : Fin cfg0.N) (h15 : t.val % 16 = 15) : ∃ q : Fin 8, t = ⟨16 * q.val + 15, pt0 q 15 (by decide)⟩ := by
  have hN : t.val < 128 := lt_of_lt_of_eq t.isLt N_0
  exact ⟨⟨t.val / 16, by omega⟩, Fin.ext (by show t.val = 16 * (t.val / 16) + 15; omega)⟩

set_option backward.isDefEq.respectTransparency.types false in
/-- What a flushing point writes back is its block of the column sums: first result. -/
theorem flushed0_3_eq (c : Dev nD) (t : Fin cfg0.N) (hf : (cfg0.win 3).flush t = true) :
    (dat0 V c).flushed 3 t = ((cfg0.win 3).blk t).view.read (Elt Ideal) (colSums (aRi V c) (aX V c)) := by
  obtain ⟨q, rfl⟩ := flush_pt0 t ((flush0_3 t).mp hf)
  have hq := q.isLt
  obtain ⟨-, -, -, -, -, -, e0, e1, -⟩ := idx0 ⟨16 * q.val + 15, pt0 q 15 (by decide)⟩
  have e0' : win0_3.index ⟨16 * q.val + 15, pt0 q 15 (by decide)⟩ (0 : Fin 2) = q.val := by rw [e0]; show (16 * q.val + 15) / 16 = q.val; omega
  show (cfg0.win 3).cut (grid0.coords _) ((dat0 V c).after 3 _) = _
  rw [after0_3]
  refine funext fun (y : S2048x4.Idx) => ?_
  obtain ⟨k, d, rfl⟩ : ∃ (k : Fin 2048) (d : Fin 4), y = ix2 k d := ⟨y 0, y 1, eq_ix2 y⟩
  rw [View.read_apply]
  refine Eq.trans ?lhs (congrArg (a₁ := ix2 (edgeAt q k) d) (colSums (aRi V c) (aX V c)) ?h)
  case lhs =>
    show (outsAt0 V c (16 * q.val + 15) _).1 (ix2 k d) = edgeSum (aRi V c) (aX V c) (edgeAt q k) d
    rw [(acc0 V c q 15 (by decide) k d).1, pref_last _ 15 (by decide), sum_nodeTile]
  case h =>
    refine funext fun a => Fin.ext ?_
    match a with
    | ⟨0, _⟩ => show k.val + 2048 * q.val = win0_3.index _ (0 : Fin 2) * 2048 + 1 * k.val; rw [e0']; omega
    | ⟨1, _⟩ => show d.val = win0_3.index _ (1 : Fin 2) * 4 + 1 * d.val; rw [e1]; omega

set_option backward.isDefEq.respectTransparency.types false in
theorem flushed0_4_eq (c : Dev nD) (t : Fin cfg0.N) (hf : (cfg0.win 4).flush t = true) :
    (dat0 V c).flushed 4 t = ((cfg0.win 4).blk t).view.read (Elt Ideal) (colSums (aRo V c) (aX V c)) := by
  obtain ⟨q, rfl⟩ := flush_pt0 t ((flush0_4 t).mp hf)
  have hq := q.isLt
  obtain ⟨-, -, -, -, -, -, -, -, e0, e1⟩ := idx0 ⟨16 * q.val + 15, pt0 q 15 (by decide)⟩
  have e0' : win0_4.index ⟨16 * q.val + 15, pt0 q 15 (by decide)⟩ (0 : Fin 2) = q.val := by rw [e0]; show (16 * q.val + 15) / 16 = q.val; omega
  show (cfg0.win 4).cut (grid0.coords _) ((dat0 V c).after 4 _) = _
  rw [after0_4]
  refine funext fun (y : S2048x4.Idx) => ?_
  obtain ⟨k, d, rfl⟩ : ∃ (k : Fin 2048) (d : Fin 4), y = ix2 k d := ⟨y 0, y 1, eq_ix2 y⟩
  rw [View.read_apply]
  refine Eq.trans ?lhs (congrArg (a₁ := ix2 (edgeAt q k) d) (colSums (aRo V c) (aX V c)) ?h)
  case lhs =>
    show (outsAt0 V c (16 * q.val + 15) _).2 (ix2 k d) = edgeSum (aRo V c) (aX V c) (edgeAt q k) d
    rw [(acc0 V c q 15 (by decide) k d).2, pref_last _ 15 (by decide), sum_nodeTile]
  case h =>
    refine funext fun a => Fin.ext ?_
    match a with
    | ⟨0, _⟩ => show k.val + 2048 * q.val = win0_4.index _ (0 : Fin 2) * 2048 + 1 * k.val; rw [e0']; omega
    | ⟨1, _⟩ => show d.val = win0_4.index _ (1 : Fin 2) * 4 + 1 * d.val; rw [e1]; omega

/-- An index of a result array is in point `t`'s block iff each coordinate is in the block's range. -/
theorem mem_blk0_3 (t : Fin cfg0.N) (i : S16384x4.Idx) :
    i ∈ ((cfg0.win 3).blk t).view.set ↔ ∀ a : Fin 2, win0_3.index t a * S2048x4.size a ≤ (i a).val ∧ (i a).val < win0_3.index t a * S2048x4.size a + S2048x4.size a := by
  show i ∈ ((View.whole main_v0_0).slice (win0_3.rect t)).set ↔ _
  rw [View.set_slice_whole, Rect.mem_set_unit]
  exact Iff.rfl

theorem mem_blk0_4 (t : Fin cfg0.N) (i : S16384x4.Idx) :
    i ∈ ((cfg0.win 4).blk t).view.set ↔ ∀ a : Fin 2, win0_4.index t a * S2048x4.size a ≤ (i a).val ∧ (i a).val < win0_4.index t a * S2048x4.size a + S2048x4.size a := by
  show i ∈ ((View.whole main_v0_1).slice (win0_4.rect t)).set ↔ _
  rw [View.set_slice_whole, Rect.mem_set_unit]
  exact Iff.rfl

/-- Every row of a result array lies in the block written back after the last point of its edge tile. -/
theorem cover0_3 (i : S16384x4.Idx) : ∃ t : Fin cfg0.N, (cfg0.win 3).flush t = true ∧ i ∈ ((cfg0.win 3).blk t).view.set := by
  have hi0 : (i 0).val < 16384 := (i 0).isLt
  have hi1 : (i 1).val < 4 := (i 1).isLt
  have hlt : 16 * ((i 0).val / 2048) + 15 < cfg0.N := by rw [show cfg0.N = 128 from N_0]; omega
  obtain ⟨-, -, -, -, -, -, e0, e1, -⟩ := idx0 ⟨16 * ((i 0).val / 2048) + 15, hlt⟩
  refine ⟨⟨16 * ((i 0).val / 2048) + 15, hlt⟩, (flush0_3 _).mpr (by show (16 * ((i 0).val / 2048) + 15) % 16 = 15; omega), ?_⟩
  rw [mem_blk0_3]
  intro a
  match a with
  | ⟨0, _⟩ =>
    show win0_3.index _ (0 : Fin 2) * 2048 ≤ (i 0).val ∧ (i 0).val < win0_3.index _ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win0_3.index _ (1 : Fin 2) * 4 ≤ (i 1).val ∧ (i 1).val < win0_3.index _ (1 : Fin 2) * 4 + 4
    rw [e1]; omega

theorem cover0_4 (i : S16384x4.Idx) : ∃ t : Fin cfg0.N, (cfg0.win 4).flush t = true ∧ i ∈ ((cfg0.win 4).blk t).view.set := by
  have hi0 : (i 0).val < 16384 := (i 0).isLt
  have hi1 : (i 1).val < 4 := (i 1).isLt
  have hlt : 16 * ((i 0).val / 2048) + 15 < cfg0.N := by rw [show cfg0.N = 128 from N_0]; omega
  obtain ⟨-, -, -, -, -, -, -, -, e0, e1⟩ := idx0 ⟨16 * ((i 0).val / 2048) + 15, hlt⟩
  refine ⟨⟨16 * ((i 0).val / 2048) + 15, hlt⟩, (flush0_4 _).mpr (by show (16 * ((i 0).val / 2048) + 15) % 16 = 15; omega), ?_⟩
  rw [mem_blk0_4]
  intro a
  match a with
  | ⟨0, _⟩ =>
    show win0_4.index _ (0 : Fin 2) * 2048 ≤ (i 0).val ∧ (i 0).val < win0_4.index _ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win0_4.index _ (1 : Fin 2) * 4 ≤ (i 1).val ∧ (i 1).val < win0_4.index _ (1 : Fin 2) * 4 + 4
    rw [e1]; omega

set_option backward.isDefEq.respectTransparency.types false in
/-- The first call's result arrays end holding the column sums of the two incidence arrays against the features. -/
theorem final0_3 (c : Dev nD) : (dat0 V c).arrAt 3 cfg0.N = colSums (aRi V c) (aX V c) :=
  (dat0 V c).arrAt_eq_of_cover 3 (colSums (aRi V c) (aX V c)) (flushed0_3_eq V c) cover0_3

set_option backward.isDefEq.respectTransparency.types false in
theorem final0_4 (c : Dev nD) : (dat0 V c).arrAt 4 cfg0.N = colSums (aRo V c) (aX V c) :=
  (dat0 V c).arrAt_eq_of_cover 4 (colSums (aRo V c) (aX V c)) (flushed0_4_eq V c) cover0_4

end

end Cert.KernelIdeal.Hand

end
-- ==== Proof.Ideal.Acc1.lean ====
/-
  Second pallas_call at the exact values: what its two result arrays end holding.

  After point `8 p + q` the output buffers hold, at row `r` and column `d`, the sum over the edge tiles `0 … q` of the
  tile's share `Σ_k R(512 p + r, 2048 q' + k) · W(2048 q' + k, d)` of the row sum (`R`, `W` the first incidence array and
  the first weighted-feature array for the first buffer, the second ones for the second). After `q = 7` that is the whole
  sum over the 16384 edges, and it is then that the block is written back, to rows `512 p …` of the result array; the
  sixteen blocks tile it.
-/
import proofs.«105642_j77137612636506_2_alg».proof.Proof.Ideal.Vals
import proofs.«105642_j77137612636506_2_alg».proof.Proof.Ideal.Blocks
import proofs.«105642_j77137612636506_2_alg».proof.Proof.Ideal.Pay
import proofs.«105642_j77137612636506_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LibTiles Cert.NodeNet Cert.KernelIdeal.Pay

section
variable (V : (c : Dev nD) → (b : Ref sig .tc) → Buf (Elt Ideal) ((c : Thread nD τ).loc b))

/-- The arrays the second call reads, as the call finds them. -/
abbrev bRi (c : Dev nD) : S8192x16384.Idx → EReal := V c main_arg2
abbrev bRo (c : Dev nD) : S8192x16384.Idx → EReal := V c main_arg3
abbrev bW2 (c : Dev nD) : S16384x4.Idx → EReal := V c main_v2
abbrev bW4 (c : Dev nD) : S16384x4.Idx → EReal := V c main_v4

/-- Edge tile `q`'s share of the row sum at node `n`, feature `d`. -/
def edgeTile (R : S8192x16384.Idx → EReal) (W : S16384x4.Idx → EReal) (n : Fin 8192) (d : Fin 4) (q : Fin 8) : EReal :=
  ∑ k : Fin 2048, R (ix2 n (edgeAt q k)) * W (ix2 (edgeAt q k) d)

/-- The row sum: an incidence row against a column of edge features. -/
def rowSum (R : S8192x16384.Idx → EReal) (W : S16384x4.Idx → EReal) (n : Fin 8192) (d : Fin 4) : EReal :=
  ∑ e : Fin 16384, R (ix2 n e) * W (ix2 e d)

theorem sum_edgeTile (R : S8192x16384.Idx → EReal) (W : S16384x4.Idx → EReal) (n : Fin 8192) (d : Fin 4) :
    ∑ q : Fin 8, edgeTile R W n d q = rowSum R W n d := by
  unfold edgeTile rowSum
  exact (sum_row_tiles (J := 8) (L := 2048) (S := 16384) rfl fun e => R (ix2 n e) * W (ix2 e d)).symm

theorem pt1 (p : Fin 16) (q : ℕ) (hq : q < 8) : 8 * p.val + q < cfg1.N := by
  have := p.isLt; rw [show cfg1.N = 128 from N_1]; omega

/-- A point's product is its edge tile's share, once its two blocks are read where they sit in the arrays. -/
theorem etile_sum (x0 : Vec Ideal S512x2048 .f32) (x2 : Vec Ideal S2048x4 .f32) (R : S8192x16384.Idx → EReal) (W : S16384x4.Idx → EReal)
    (n : Fin 8192) (r : Fin 512) (d : Fin 4) (q : Fin 8)
    (h0 : ∀ k : Fin 2048, x0 (ix2 r k) = R (ix2 n (edgeAt q k))) (h2 : ∀ k : Fin 2048, x2 (ix2 k d) = W (ix2 (edgeAt q k) d)) :
    (∑ k : Fin 2048, x0 (ix2 r k) * x2 (ix2 k d)) = edgeTile R W n d q := by
  unfold edgeTile
  exact Finset.sum_congr rfl fun k _ => by rw [h0 k, h2 k]

/-- THE ACCUMULATION in closed form: after point `8 p + q` the buffers hold the prefix sums over the edge tiles. -/
theorem acc1 (c : Dev nD) (p : Fin 16) : ∀ (q : ℕ) (hq : q < 8) (r : Fin 512) (d : Fin 4),
    (outsAt1 V c (8 * p.val + q) (pt1 p q hq)).1 (ix2 r d) = pref (edgeTile (bRi V c) (bW2 V c) (nodeAt p r) d) q
    ∧ (outsAt1 V c (8 * p.val + q) (pt1 p q hq)).2 (ix2 r d) = pref (edgeTile (bRo V c) (bW4 V c) (nodeAt p r) d) q
  | 0, hq, r, d => by
    have hp := p.isLt
    have ht : (⟨8 * p.val + 0, pt1 p 0 hq⟩ : Fin cfg1.N).val = 8 * p.val + (⟨0, hq⟩ : Fin 8).val := rfl
    have h0 : (⟨8 * p.val + 0, pt1 p 0 hq⟩ : Fin cfg1.N).val % 8 = 0 := by show (8 * p.val + 0) % 8 = 0; omega
    have e := outsAt1_start V c ⟨8 * p.val + 0, pt1 p 0 hq⟩ h0
    constructor
    · refine (congrArg (fun x => x.1 (ix2 r d)) e).trans ?_
      refine (k1_pay3_apply (iblk1 V c 0 ⟨8 * p.val + 0, pt1 p 0 hq⟩) (iblk1 V c 2 ⟨8 * p.val + 0, pt1 p 0 hq⟩) (k1_pay1 (F := Ideal)) r d).trans ?_
      rw [k1_pay1_apply, zero_add, pref_zero _ (by decide)]
      exact etile_sum (iblk1 V c 0 ⟨8 * p.val + 0, pt1 p 0 hq⟩) (iblk1 V c 2 ⟨8 * p.val + 0, pt1 p 0 hq⟩) (bRi V c) (bW2 V c) (nodeAt p r) r d ⟨0, hq⟩
        (fun k => iblk1_0_apply V c _ p ⟨0, hq⟩ ht r k) (fun k => iblk1_2_apply V c _ p ⟨0, hq⟩ ht k d)
    · refine (congrArg (fun x => x.2 (ix2 r d)) e).trans ?_
      refine (k1_pay4_apply (iblk1 V c 1 ⟨8 * p.val + 0, pt1 p 0 hq⟩) (iblk1 V c 3 ⟨8 * p.val + 0, pt1 p 0 hq⟩) (k1_pay2 (F := Ideal)) r d).trans ?_
      rw [k1_pay2_apply, zero_add, pref_zero _ (by decide)]
      exact etile_sum (iblk1 V c 1 ⟨8 * p.val + 0, pt1 p 0 hq⟩) (iblk1 V c 3 ⟨8 * p.val + 0, pt1 p 0 hq⟩) (bRo V c) (bW4 V c) (nodeAt p r) r d ⟨0, hq⟩
        (fun k => iblk1_1_apply V c _ p ⟨0, hq⟩ ht r k) (fun k => iblk1_3_apply V c _ p ⟨0, hq⟩ ht k d)
  | q + 1, hq, r, d => by
    have hp := p.isLt
    have hq' : q < 8 := by omega
    have ht : (⟨8 * p.val + (q + 1), pt1 p (q + 1) hq⟩ : Fin cfg1.N).val = 8 * p.val + (⟨q + 1, hq⟩ : Fin 8).val := rfl
    have h0 : ¬(⟨8 * p.val + (q + 1), pt1 p (q + 1) hq⟩ : Fin cfg1.N).val % 8 = 0 := by
      show ¬(8 * p.val + (q + 1)) % 8 = 0; omega
    have e := outsAt1_step V c ⟨8 * p.val + (q + 1), pt1 p (q + 1) hq⟩ h0
    obtain ⟨ih1, ih2⟩ := acc1 c p q hq' r d
    constructor
    · refine (congrArg (fun x => x.1 (ix2 r d)) e).trans ?_
      refine (k1_pay3_apply (iblk1 V c 0 ⟨8 * p.val + (q + 1), pt1 p (q + 1) hq⟩) (iblk1 V c 2 ⟨8 * p.val + (q + 1), pt1 p (q + 1) hq⟩) _ r d).trans ?_
      rw [pref_succ _ q hq]
      exact congrArg₂ (· + ·) ih1 (etile_sum (iblk1 V c 0 ⟨8 * p.val + (q + 1), pt1 p (q + 1) hq⟩) (iblk1 V c 2 ⟨8 * p.val + (q + 1), pt1 p (q + 1) hq⟩) (bRi V c) (bW2 V c) (nodeAt p r) r d ⟨q + 1, hq⟩
        (fun k => iblk1_0_apply V c _ p ⟨q + 1, hq⟩ ht r k) (fun k => iblk1_2_apply V c _ p ⟨q + 1, hq⟩ ht k d))
    · refine (congrArg (fun x => x.2 (ix2 r d)) e).trans ?_
      refine (k1_pay4_apply (iblk1 V c 1 ⟨8 * p.val + (q + 1), pt1 p (q + 1) hq⟩) (iblk1 V c 3 ⟨8 * p.val + (q + 1), pt1 p (q + 1) hq⟩) _ r d).trans ?_
      rw [pref_succ _ q hq]
      exact congrArg₂ (· + ·) ih2 (etile_sum (iblk1 V c 1 ⟨8 * p.val + (q + 1), pt1 p (q + 1) hq⟩) (iblk1 V c 3 ⟨8 * p.val + (q + 1), pt1 p (q + 1) hq⟩) (bRo V c) (bW4 V c) (nodeAt p r) r d ⟨q + 1, hq⟩
        (fun k => iblk1_1_apply V c _ p ⟨q + 1, hq⟩ ht r k) (fun k => iblk1_3_apply V c _ p ⟨q + 1, hq⟩ ht k d))

/-! ## From the blocks to the arrays -/

/-- The row sums as an array over (node, feature). -/
def rowSums (R : S8192x16384.Idx → EReal) (W : S16384x4.Idx → EReal) : S8192x4.Idx → EReal :=
  fun i => rowSum R W (i 0) (i 1)

theorem flush_pt1 (t : Fin cfg1.N) (h7 : t.val % 8 = 7) : ∃ p : Fin 16, t = ⟨8 * p.val + 7, pt1 p 7 (by decide)⟩ := by
  have hN : t.val < 128 := lt_of_lt_of_eq t.isLt N_1
  exact ⟨⟨t.val / 8, by omega⟩, Fin.ext (by show t.val = 8 * (t.val / 8) + 7; omega)⟩

set_option maxRecDepth 400000 in
set_option backward.isDefEq.respectTransparency.types false in
theorem flushed1_4_eq (c : Dev nD) (t : Fin cfg1.N) (hf : (cfg1.win 4).flush t = true) :
    (dat1 V c).flushed 4 t = ((cfg1.win 4).blk t).view.read (Elt Ideal) (rowSums (bRi V c) (bW2 V c)) := by
  obtain ⟨p, rfl⟩ := flush_pt1 t ((flush1_4 t).mp hf)
  have hp := p.isLt
  obtain ⟨-, -, -, -, -, -, -, -, e0, e1, -⟩ := idx1 ⟨8 * p.val + 7, pt1 p 7 (by decide)⟩
  have e0' : win1_4.index ⟨8 * p.val + 7, pt1 p 7 (by decide)⟩ (0 : Fin 2) = p.val := by rw [e0]; show (8 * p.val + 7) / 8 = p.val; omega
  show (cfg1.win 4).cut (grid1.coords _) ((dat1 V c).after 4 _) = _
  rw [after1_4]
  refine funext fun (y : S512x4.Idx) => ?_
  obtain ⟨r, d, rfl⟩ : ∃ (r : Fin 512) (d : Fin 4), y = ix2 r d := ⟨y 0, y 1, eq_ix2 y⟩
  rw [View.read_apply]
  refine Eq.trans ?lhs (congrArg (a₁ := ix2 (nodeAt p r) d) (rowSums (bRi V c) (bW2 V c)) ?h)
  case lhs =>
    show (outsAt1 V c (8 * p.val + 7) _).1 (ix2 r d) = rowSum (bRi V c) (bW2 V c) (nodeAt p r) d
    rw [(acc1 V c p 7 (by decide) r d).1, pref_last _ 7 (by decide), sum_edgeTile]
  case h =>
    refine funext fun a => Fin.ext ?_
    match a with
    | ⟨0, _⟩ => show r.val + 512 * p.val = win1_4.index _ (0 : Fin 2) * 512 + 1 * r.val; rw [e0']; omega
    | ⟨1, _⟩ => show d.val = win1_4.index _ (1 : Fin 2) * 4 + 1 * d.val; rw [e1]; omega

set_option maxRecDepth 400000 in
set_option backward.isDefEq.respectTransparency.types false in
theorem flushed1_5_eq (c : Dev nD) (t : Fin cfg1.N) (hf : (cfg1.win 5).flush t = true) :
    (dat1 V c).flushed 5 t = ((cfg1.win 5).blk t).view.read (Elt Ideal) (rowSums (bRo V c) (bW4 V c)) := by
  obtain ⟨p, rfl⟩ := flush_pt1 t ((flush1_5 t).mp hf)
  have hp := p.isLt
  obtain ⟨-, -, -, -, -, -, -, -, -, -, e0, e1⟩ := idx1 ⟨8 * p.val + 7, pt1 p 7 (by decide)⟩
  have e0' : win1_5.index ⟨8 * p.val + 7, pt1 p 7 (by decide)⟩ (0 : Fin 2) = p.val := by rw [e0]; show (8 * p.val + 7) / 8 = p.val; omega
  show (cfg1.win 5).cut (grid1.coords _) ((dat1 V c).after 5 _) = _
  rw [after1_5]
  refine funext fun (y : S512x4.Idx) => ?_
  obtain ⟨r, d, rfl⟩ : ∃ (r : Fin 512) (d : Fin 4), y = ix2 r d := ⟨y 0, y 1, eq_ix2 y⟩
  rw [View.read_apply]
  refine Eq.trans ?lhs (congrArg (a₁ := ix2 (nodeAt p r) d) (rowSums (bRo V c) (bW4 V c)) ?h)
  case lhs =>
    show (outsAt1 V c (8 * p.val + 7) _).2 (ix2 r d) = rowSum (bRo V c) (bW4 V c) (nodeAt p r) d
    rw [(acc1 V c p 7 (by decide) r d).2, pref_last _ 7 (by decide), sum_edgeTile]
  case h =>
    refine funext fun a => Fin.ext ?_
    match a with
    | ⟨0, _⟩ => show r.val + 512 * p.val = win1_5.index _ (0 : Fin 2) * 512 + 1 * r.val; rw [e0']; omega
    | ⟨1, _⟩ => show d.val = win1_5.index _ (1 : Fin 2) * 4 + 1 * d.val; rw [e1]; omega

theorem mem_blk1_4 (t : Fin cfg1.N) (i : S8192x4.Idx) :
    i ∈ ((cfg1.win 4).blk t).view.set ↔ ∀ a : Fin 2, win1_4.index t a * S512x4.size a ≤ (i a).val ∧ (i a).val < win1_4.index t a * S512x4.size a + S512x4.size a := by
  show i ∈ ((View.whole main_v5_0).slice (win1_4.rect t)).set ↔ _
  rw [View.set_slice_whole, Rect.mem_set_unit]
  exact Iff.rfl

theorem mem_blk1_5 (t : Fin cfg1.N) (i : S8192x4.Idx) :
    i ∈ ((cfg1.win 5).blk t).view.set ↔ ∀ a : Fin 2, win1_5.index t a * S512x4.size a ≤ (i a).val ∧ (i a).val < win1_5.index t a * S512x4.size a + S512x4.size a := by
  show i ∈ ((View.whole main_v5_1).slice (win1_5.rect t)).set ↔ _
  rw [View.set_slice_whole, Rect.mem_set_unit]
  exact Iff.rfl

theorem cover1_4 (i : S8192x4.Idx) : ∃ t : Fin cfg1.N, (cfg1.win 4).flush t = true ∧ i ∈ ((cfg1.win 4).blk t).view.set := by
  have hi0 : (i 0).val < 8192 := (i 0).isLt
  have hi1 : (i 1).val < 4 := (i 1).isLt
  have hlt : 8 * ((i 0).val / 512) + 7 < cfg1.N := by rw [show cfg1.N = 128 from N_1]; omega
  obtain ⟨-, -, -, -, -, -, -, -, e0, e1, -⟩ := idx1 ⟨8 * ((i 0).val / 512) + 7, hlt⟩
  refine ⟨⟨8 * ((i 0).val / 512) + 7, hlt⟩, (flush1_4 _).mpr (by show (8 * ((i 0).val / 512) + 7) % 8 = 7; omega), ?_⟩
  rw [mem_blk1_4]
  intro a
  match a with
  | ⟨0, _⟩ =>
    show win1_4.index _ (0 : Fin 2) * 512 ≤ (i 0).val ∧ (i 0).val < win1_4.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win1_4.index _ (1 : Fin 2) * 4 ≤ (i 1).val ∧ (i 1).val < win1_4.index _ (1 : Fin 2) * 4 + 4
    rw [e1]; omega

theorem cover1_5 (i : S8192x4.Idx) : ∃ t : Fin cfg1.N, (cfg1.win 5).flush t = true ∧ i ∈ ((cfg1.win 5).blk t).view.set := by
  have hi0 : (i 0).val < 8192 := (i 0).isLt
  have hi1 : (i 1).val < 4 := (i 1).isLt
  have hlt : 8 * ((i 0).val / 512) + 7 < cfg1.N := by rw [show cfg1.N = 128 from N_1]; omega
  obtain ⟨-, -, -, -, -, -, -, -, -, -, e0, e1⟩ := idx1 ⟨8 * ((i 0).val / 512) + 7, hlt⟩
  refine ⟨⟨8 * ((i 0).val / 512) + 7, hlt⟩, (flush1_5 _).mpr (by show (8 * ((i 0).val / 512) + 7) % 8 = 7; omega), ?_⟩
  rw [mem_blk1_5]
  intro a
  match a with
  | ⟨0, _⟩ =>
    show win1_5.index _ (0 : Fin 2) * 512 ≤ (i 0).val ∧ (i 0).val < win1_5.index _ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win1_5.index _ (1 : Fin 2) * 4 ≤ (i 1).val ∧ (i 1).val < win1_5.index _ (1 : Fin 2) * 4 + 4
    rw [e1]; omega

set_option backward.isDefEq.respectTransparency.types false in
/-- The second call's result arrays end holding the row sums of the incidence arrays against the weighted features. -/
theorem final1_4 (c : Dev nD) : (dat1 V c).arrAt 4 cfg1.N = rowSums (bRi V c) (bW2 V c) :=
  (dat1 V c).arrAt_eq_of_cover 4 (rowSums (bRi V c) (bW2 V c)) (flushed1_4_eq V c) cover1_4

set_option backward.isDefEq.respectTransparency.types false in
theorem final1_5 (c : Dev nD) : (dat1 V c).arrAt 5 cfg1.N = rowSums (bRo V c) (bW4 V c) :=
  (dat1 V c).arrAt_eq_of_cover 5 (rowSums (bRo V c) (bW4 V c)) (flushed1_5_eq V c) cover1_5

end

end Cert.KernelIdeal.Hand

end
-- ==== Proof.Ideal.Value.lean ====
/-
  The idealized kernel program's result, as one function of its arguments.

  Between the two pallas_calls the host multiplies each edge-feature array, row by row, by that edge's weight; after the
  second it joins the two message arrays with the node features along the feature axis and multiplies by the projection
  vector. Reading the buffer contents boundary by boundary: the first call leaves the column sums `Σ_n R(n,e)·X(n,d)`;
  the weighting turns them into `w(e)·Σ_n R'(n,e)·X(n,d)`; the second call leaves the row sums of an incidence array against
  those, which is the message `Σ_e R(n,e)·(w(e)·Σ_n' R'(n',e)·X(n',d))`; the last two host lines are applied to them unopened.
-/
import proofs.«105642_j77137612636506_2_alg».proof.Proof.Ideal.Run
import proofs.«105642_j77137612636506_2_alg».proof.Proof.Ideal.Args
import proofs.«105642_j77137612636506_2_alg».proof.Proof.Ideal.Acc0
import proofs.«105642_j77137612636506_2_alg».proof.Proof.Ideal.Acc1
import proofs.«105642_j77137612636506_2_alg».proof.Proof.Spec
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.LibTiles Cert.NodeNet Idealize.ShloMosaic.StableHlo

variable (m : (ℓ : Loc nD τ sig) → Buf (Elt Ideal) ℓ) (ρ : Dev nD → PrngReg)

/-! ## The first call's results, and their weighting -/

theorem B1_v0_0 (c : Dev nD) : B1 m ρ c (Proc.devRef .tc main_v0_0)
    = colSums (m ((c : Thread nD τ).loc main_arg2)) (m ((c : Thread nD τ).loc main_arg0)) :=
  (B1_arr m ρ c 3).trans (final0_3 (E0 m ρ) c)
theorem B1_v0_1 (c : Dev nD) : B1 m ρ c (Proc.devRef .tc main_v0_1)
    = colSums (m ((c : Thread nD τ).loc main_arg3)) (m ((c : Thread nD τ).loc main_arg0)) :=
  (B1_arr m ρ c 4).trans (final0_4 (E0 m ρ) c)

/-- A row-wise weighting read at an index. -/
theorem weighted_apply (w : S16384x1.Idx → EReal) (b : S16384x4.Idx → EReal) (e : Fin 16384) (d : Fin 4) :
    mulf (F := Ideal) (φ := .f32) (broadcastInDim S16384x4 ![0, 1] bcast_S16384x1_S16384x4_0_1 w) b (ix2 e d) = w (ix2 e 0) * b (ix2 e d) := by
  show FloatOps.mulf (F := Ideal) (broadcastInDim S16384x4 ![0, 1] bcast_S16384x1_S16384x4_0_1 w (ix2 e d)) (b (ix2 e d)) = _
  rw [broadcastInDim_apply _ bcast_S16384x1_S16384x4_0_1 w (ix2 e d) (ix2 e 0) (fun a => match a with
    | ⟨0, _⟩ => by show e.val = if (16384 : Nat) = 1 then 0 else e.val; rw [if_neg (by decide)]
    | ⟨1, _⟩ => by show 0 = if (1 : Nat) = 1 then 0 else d.val; rw [if_pos rfl])]
  rfl

theorem B2_v2 (c : Dev nD) : B2 m ρ c (Proc.devRef .tc main_v2)
    = mulf (F := Ideal) (φ := .f32) (broadcastInDim S16384x4 ![0, 1] bcast_S16384x1_S16384x4_0_1 (B1 m ρ c (Proc.devRef .tc main_arg1))) (B1 m ρ c (Proc.devRef .tc main_v0_1)) := by
  show StableHlo.after hostOps1 (B1 m ρ c) (Proc.devRef .tc main_v2) = _
  after_results
  try rfl
theorem B2_v4 (c : Dev nD) : B2 m ρ c (Proc.devRef .tc main_v4)
    = mulf (F := Ideal) (φ := .f32) (broadcastInDim S16384x4 ![0, 1] bcast_S16384x1_S16384x4_0_1 (B1 m ρ c (Proc.devRef .tc main_arg1))) (B1 m ρ c (Proc.devRef .tc main_v0_0)) := by
  show StableHlo.after hostOps1 (B1 m ρ c) (Proc.devRef .tc main_v4) = _
  after_results
  try rfl

/-! ## The second call's results are the messages -/

/-- Row sums of an incidence array against weighted column sums: the message, in the kernel's grouping. -/
theorem rowSums_weighted (R R' : S8192x16384.Idx → EReal) (X : S8192x4.Idx → EReal) (w : S16384x1.Idx → EReal) :
    rowSums R (mulf (F := Ideal) (φ := .f32) (broadcastInDim S16384x4 ![0, 1] bcast_S16384x1_S16384x4_0_1 w) (colSums R' X)) = msgArr R R' X w := by
  refine funext fun (i : S8192x4.Idx) => ?_
  obtain ⟨n, d, rfl⟩ : ∃ (n : Fin 8192) (d : Fin 4), i = ix2 n d := ⟨i 0, i 1, eq_ix2 i⟩
  show rowSum R _ n d = msg R R' X w n d
  unfold rowSum msg
  refine Finset.sum_congr rfl fun e _ => ?_
  rw [weighted_apply]
  rfl

set_option backward.isDefEq.respectTransparency.types false in
theorem B3_v5_0 (c : Dev nD) : B3 m ρ c (Proc.devRef .tc main_v5_0)
    = msgArr (m ((c : Thread nD τ).loc main_arg2)) (m ((c : Thread nD τ).loc main_arg3)) (m ((c : Thread nD τ).loc main_arg0)) (m ((c : Thread nD τ).loc main_arg1)) := by
  refine (B3_arr m ρ c 4).trans ((final1_4 (E2 m ρ) c).trans ?_)
  show rowSums (B2 m ρ c (Proc.devRef .tc main_arg2)) (B2 m ρ c (Proc.devRef .tc main_v2)) = _
  rw [B2_of m ρ c main_arg2 (by decide), B1_arg2, B2_v2, B1_arg1, B1_v0_1]
  exact rowSums_weighted _ _ _ _

set_option backward.isDefEq.respectTransparency.types false in
theorem B3_v5_1 (c : Dev nD) : B3 m ρ c (Proc.devRef .tc main_v5_1)
    = msgArr (m ((c : Thread nD τ).loc main_arg3)) (m ((c : Thread nD τ).loc main_arg2)) (m ((c : Thread nD τ).loc main_arg0)) (m ((c : Thread nD τ).loc main_arg1)) := by
  refine (B3_arr m ρ c 5).trans ((final1_5 (E2 m ρ) c).trans ?_)
  show rowSums (B2 m ρ c (Proc.devRef .tc main_arg3)) (B2 m ρ c (Proc.devRef .tc main_v4)) = _
  rw [B2_of m ρ c main_arg3 (by decide), B1_arg3, B2_v4, B1_arg1, B1_v0_0]
  exact rowSums_weighted _ _ _ _

/-! ## The last two host lines, kept whole -/

/-- Join the two message arrays with the node features along the feature axis and multiply by the projection vector. -/
def tailK (mi mo X : (⟨S8192x4, .f32⟩ : BufTy).Contents (Elt Ideal)) (k : (⟨S12x1, .f32⟩ : BufTy).Contents (Elt Ideal)) :
    (⟨S8192x1, .f32⟩ : BufTy).Contents (Elt Ideal) :=
  Host.dotGeneral (F := Ideal) (φ₁ := .f32) (φ₂ := .f32) dot_S8192x12_S12x1_S8192x1_1_0_0_1_n_n none
    (concatenate S8192x12 1 [⟨S8192x4, mi⟩, ⟨S8192x4, mo⟩, ⟨S8192x4, X⟩] concatenates_S8192x4_S8192x4_S8192x4_S8192x12_d1) k

theorem B4_v7 (c : Dev nD) : B4 m ρ c (Proc.devRef .tc main_v7)
    = tailK (B3 m ρ c (Proc.devRef .tc main_v5_0)) (B3 m ρ c (Proc.devRef .tc main_v5_1)) (B3 m ρ c (Proc.devRef .tc main_arg0)) (B3 m ρ c (Proc.devRef .tc main_arg4)) := by
  show StableHlo.after hostOps2 (B3 m ρ c) (Proc.devRef .tc main_v7) = _
  after_results
  try rfl

/-! ## The run, read -/

/-- Every weakly fair execution of the idealized kernel program ends with its result at the common tail of the two
    messages, the node features and the projection vector, and with its five arguments as launched. -/
theorem run_value : θ_run defs (onTc (τ := τ) (main (F := Ideal))) ⟨m, fun _ => 0, ρ⟩ (fun r => ∀ c : Dev nD,
      r.2.mem ((c.tc : Thread nD τ).loc main_v7)
        = tailK (msgArr (m ((c.tc : Thread nD τ).loc main_arg2)) (m ((c.tc : Thread nD τ).loc main_arg3)) (m ((c.tc : Thread nD τ).loc main_arg0)) (m ((c.tc : Thread nD τ).loc main_arg1)))
            (msgArr (m ((c.tc : Thread nD τ).loc main_arg3)) (m ((c.tc : Thread nD τ).loc main_arg2)) (m ((c.tc : Thread nD τ).loc main_arg0)) (m ((c.tc : Thread nD τ).loc main_arg1)))
            (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v7 (by decide))).trans ((B4_v7 m ρ c).trans (by rw [B3_v5_0, B3_v5_1, B3_arg0, B3_arg4])),
     (h c _ (mem_uc main_arg0 (by decide))).trans ((B4_of m ρ c main_arg0 (by decide)).trans (B3_arg0 m ρ c)),
     (h c _ (mem_uc main_arg1 (by decide))).trans ((B4_of m ρ c main_arg1 (by decide)).trans (B3_arg1 m ρ c)),
     (h c _ (mem_uc main_arg2 (by decide))).trans ((B4_of m ρ c main_arg2 (by decide)).trans (B3_arg2 m ρ c)),
     (h c _ (mem_uc main_arg3 (by decide))).trans ((B4_of m ρ c main_arg3 (by decide)).trans (B3_arg3 m ρ c)),
     (h c _ (mem_uc main_arg4 (by decide))).trans ((B4_of m ρ c main_arg4 (by decide)).trans (B3_arg4 m ρ c))⟩)
    (run_all (F := Ideal) m ρ)

end Cert.KernelIdeal.Hand

end
-- ==== Proof.RefValue.lean ====
/-
  The reference's run, read at the extended reals. Its two message stages are the node-network messages of the
  specification: stage 9 is  Σ_e (Ri(n,e) · w(e)) · (Σ_n' Ro(n',e) · X(n',d)),  the weight multiplied into the
  incidence entry first, which is the specification's  Σ_e Ri(n,e) · (w(e) · edgeSum Ro X e d)  by associativity of the
  product; stage 10 is the same with the two incidence arrays exchanged. The result is the common tail — the
  concatenation of the two message arrays with X along the feature axis, times the 12 coefficients — of them.
-/
import proofs.«105642_j77137612636506_2_alg».proof.Proof.Gen.ReferenceIdeal.Read
import proofs.«105642_j77137612636506_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx Cert.NodeNet

/-- The last two operations of the reference: the three [8192, 4] arrays joined along the feature axis into
    [8192, 12], contracted with the 12 coefficients. -/
def tail (mi mo X : (⟨S8192x4, .f32⟩ : BufTy).Contents (Elt Ideal)) (k : (⟨S12x1, .f32⟩ : BufTy).Contents (Elt Ideal)) :
    (⟨S8192x1, .f32⟩ : BufTy).Contents (Elt Ideal) :=
  Host.dotGeneral (F := Ideal) (φ₁ := .f32) (φ₂ := .f32) dot_S8192x12_S12x1_S8192x1_1_0_0_1_n_n none
    (concatenate S8192x12 1 [⟨S8192x4, mi⟩, ⟨S8192x4, mo⟩, ⟨S8192x4, X⟩] concatenates_S8192x4_S8192x4_S8192x4_S8192x12_d1) k

/-! ## The composed index functions, at indices given by their coordinates -/

theorem lidx9 (n : Fin 8192) (d : Fin 4) (k : Fin 16384) : lidx_main_v9 (ix2 n d) k = ix2 n k :=
  funext fun a => Fin.ext (by match a with | ⟨0, _⟩ => rfl | ⟨1, _⟩ => rfl)
theorem ridx9 (n : Fin 8192) (d : Fin 4) (k : Fin 16384) : ridx_main_v9 (ix2 n d) k = ix2 k d :=
  funext fun a => Fin.ext (by match a with | ⟨0, _⟩ => rfl | ⟨1, _⟩ => rfl)
theorem lidx10 (n : Fin 8192) (d : Fin 4) (k : Fin 16384) : lidx_main_v10 (ix2 n d) k = ix2 n k :=
  funext fun a => Fin.ext (by match a with | ⟨0, _⟩ => rfl | ⟨1, _⟩ => rfl)
theorem ridx10 (n : Fin 8192) (d : Fin 4) (k : Fin 16384) : ridx_main_v10 (ix2 n d) k = ix2 k d :=
  funext fun a => Fin.ext (by match a with | ⟨0, _⟩ => rfl | ⟨1, _⟩ => rfl)
/-- The weight row, broadcast over the nodes and read back through the transposition: entry (e, 0) of the weights. -/
theorem widx5 (n : Fin 8192) (k : Fin 16384) : idx_main_v4 (idx_main_v5 (ix2 n k)) = ix2 k (0 : Fin 1) :=
  funext fun a => Fin.ext (by match a with | ⟨0, _⟩ => rfl | ⟨1, _⟩ => rfl)
theorem widx7 (n : Fin 8192) (k : Fin 16384) : idx_main_v4 (idx_main_v7 (ix2 n k)) = ix2 k (0 : Fin 1) :=
  funext fun a => Fin.ext (by match a with | ⟨0, _⟩ => rfl | ⟨1, _⟩ => rfl)
theorem lidx1 (k : Fin 16384) (d : Fin 4) (n' : Fin 8192) : idx_main_v0 (lidx_main_v1 (ix2 k d) n') = ix2 n' k :=
  funext fun a => Fin.ext (by match a with | ⟨0, _⟩ => rfl | ⟨1, _⟩ => rfl)
theorem ridx1 (k : Fin 16384) (d : Fin 4) (n' : Fin 8192) : ridx_main_v1 (ix2 k d) n' = ix2 n' d :=
  funext fun a => Fin.ext (by match a with | ⟨0, _⟩ => rfl | ⟨1, _⟩ => rfl)
theorem lidx3 (k : Fin 16384) (d : Fin 4) (n' : Fin 8192) : idx_main_v2 (lidx_main_v3 (ix2 k d) n') = ix2 n' k :=
  funext fun a => Fin.ext (by match a with | ⟨0, _⟩ => rfl | ⟨1, _⟩ => rfl)
theorem ridx3 (k : Fin 16384) (d : Fin 4) (n' : Fin 8192) : ridx_main_v3 (ix2 k d) n' = ix2 n' d :=
  funext fun a => Fin.ext (by match a with | ⟨0, _⟩ => rfl | ⟨1, _⟩ => rfl)

/-! ## The stages -/

/-- Stage 1 (the transposed outgoing incidence times the features) at an edge and a feature: the gathered sum. -/
theorem bo_apply (X : (⟨S8192x4, .f32⟩ : BufTy).Contents (Elt Ideal)) (Ro : (⟨S8192x16384, .f32⟩ : BufTy).Contents (Elt Ideal))
    (k : Fin 16384) (d : Fin 4) : val_main_v1 (F := Ideal) X Ro (ix2 k d) = edgeSum Ro X k d := by
  rw [val_main_v1_apply]
  unfold edgeSum
  refine Finset.sum_congr rfl fun n' _ => ?_
  rw [val_main_v0_apply, lidx1, ridx1]

/-- Stage 3 (the transposed incoming incidence times the features) at an edge and a feature: the gathered sum. -/
theorem bi_apply (X : (⟨S8192x4, .f32⟩ : BufTy).Contents (Elt Ideal)) (Ri : (⟨S8192x16384, .f32⟩ : BufTy).Contents (Elt Ideal))
    (k : Fin 16384) (d : Fin 4) : val_main_v3 (F := Ideal) X Ri (ix2 k d) = edgeSum Ri X k d := by
  rw [val_main_v3_apply]
  unfold edgeSum
  refine Finset.sum_congr rfl fun n' _ => ?_
  rw [val_main_v2_apply, lidx3, ridx3]

/-- Stage 6 (the incoming incidence times the broadcast weight row) at a node and an edge. -/
theorem rwi_apply (e : (⟨S16384x1, .f32⟩ : BufTy).Contents (Elt Ideal)) (Ri : (⟨S8192x16384, .f32⟩ : BufTy).Contents (Elt Ideal))
    (n : Fin 8192) (k : Fin 16384) : val_main_v6 (F := Ideal) e Ri (ix2 n k) = Ri (ix2 n k) * e (ix2 k (0 : Fin 1)) := by
  rw [val_main_v6_apply, val_main_v5_apply, val_main_v4_apply, widx5, Ideal.mulf_def]

/-- Stage 8 (the outgoing incidence times the broadcast weight row) at a node and an edge. -/
theorem rwo_apply (e : (⟨S16384x1, .f32⟩ : BufTy).Contents (Elt Ideal)) (Ro : (⟨S8192x16384, .f32⟩ : BufTy).Contents (Elt Ideal))
    (n : Fin 8192) (k : Fin 16384) : val_main_v8 (F := Ideal) e Ro (ix2 n k) = Ro (ix2 n k) * e (ix2 k (0 : Fin 1)) := by
  rw [val_main_v8_apply, val_main_v7_apply, val_main_v4_apply, widx7, Ideal.mulf_def]

/-- Stage 9 of the reference is the message array scattered through the incoming incidence of the features gathered
    through the outgoing one. -/
theorem mi_eq (X : (⟨S8192x4, .f32⟩ : BufTy).Contents (Elt Ideal)) (e : (⟨S16384x1, .f32⟩ : BufTy).Contents (Elt Ideal))
    (Ri Ro : (⟨S8192x16384, .f32⟩ : BufTy).Contents (Elt Ideal)) :
    val_main_v9 (F := Ideal) X e Ri Ro = msgArr Ri Ro X e := by
  funext j
  obtain ⟨n, d, rfl⟩ : ∃ (n : Fin 8192) (d : Fin 4), j = ix2 n d := ⟨j 0, j 1, eq_ix2 j⟩
  rw [msgArr_apply, ← msg_assoc, val_main_v9_apply]
  refine Finset.sum_congr rfl fun k _ => ?_
  rw [lidx9, ridx9, rwi_apply, bo_apply]

/-- Stage 10 of the reference is the message array scattered through the outgoing incidence of the features gathered
    through the incoming one. -/
theorem mo_eq (X : (⟨S8192x4, .f32⟩ : BufTy).Contents (Elt Ideal)) (e : (⟨S16384x1, .f32⟩ : BufTy).Contents (Elt Ideal))
    (Ri Ro : (⟨S8192x16384, .f32⟩ : BufTy).Contents (Elt Ideal)) :
    val_main_v10 (F := Ideal) X e Ri Ro = msgArr Ro Ri X e := by
  funext j
  obtain ⟨n, d, rfl⟩ : ∃ (n : Fin 8192) (d : Fin 4), j = ix2 n d := ⟨j 0, j 1, eq_ix2 j⟩
  rw [msgArr_apply, ← msg_assoc, val_main_v10_apply]
  refine Finset.sum_congr rfl fun k _ => ?_
  rw [lidx10, ridx10, rwo_apply, bi_apply]

/-- The last stage is the common tail of stages 9 and 10 and the features. -/
theorem val_main_v12_tail (X : (⟨S8192x4, .f32⟩ : BufTy).Contents (Elt Ideal)) (e : (⟨S16384x1, .f32⟩ : BufTy).Contents (Elt Ideal))
    (Ri Ro : (⟨S8192x16384, .f32⟩ : BufTy).Contents (Elt Ideal)) (k : (⟨S12x1, .f32⟩ : BufTy).Contents (Elt Ideal)) :
    val_main_v12 (F := Ideal) X e Ri Ro k = tail (val_main_v9 (F := Ideal) X e Ri Ro) (val_main_v10 (F := Ideal) X e Ri Ro) X k := rfl

/-- The reference's result is the common tail of the two message arrays of the specification and the features. -/
theorem result_eq (X : (⟨S8192x4, .f32⟩ : BufTy).Contents (Elt Ideal)) (e : (⟨S16384x1, .f32⟩ : BufTy).Contents (Elt Ideal))
    (Ri Ro : (⟨S8192x16384, .f32⟩ : BufTy).Contents (Elt Ideal)) (k : (⟨S12x1, .f32⟩ : BufTy).Contents (Elt Ideal)) :
    val_main_v12 (F := Ideal) X e Ri Ro k = tail (msgArr Ri Ro X e) (msgArr Ro Ri X e) X k := by
  rw [val_main_v12_tail, mi_eq, mo_eq]

/-- Every weakly fair execution of the reference terminates with its result at the common tail of the two message
    arrays of the specification (of the argument arrays as launched) and the features, the arguments unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v12)
          = tail (msgArr (m' ((c.tc : Thread nD τ).loc main_arg2)) (m' ((c.tc : Thread nD τ).loc main_arg3))
                    (m' ((c.tc : Thread nD τ).loc main_arg0)) (m' ((c.tc : Thread nD τ).loc main_arg1)))
                 (msgArr (m' ((c.tc : Thread nD τ).loc main_arg3)) (m' ((c.tc : Thread nD τ).loc main_arg2))
                    (m' ((c.tc : Thread nD τ).loc main_arg0)) (m' ((c.tc : Thread nD τ).loc main_arg1)))
                 (m' ((c.tc : Thread nD τ).loc main_arg0)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) :=
  (θ_run defs _ _).mono
    (fun _ h c => ⟨(h c).1.trans ((val_main_v12_eq (F := Ideal) _ _ _ _ _).trans (result_eq _ _ _ _ _)), (h c).2⟩)
    (Cert.ReferenceIdeal.Value.run (F := Ideal) m' ρ')

end Cert.ReferenceIdeal.RefValue

end
-- ==== Proof.lean ====
/-
  A message-passing layer on a graph with 8192 nodes, 16384 edges and 4 features per node, against its plain reference.

  With `X` the node features, `w` the edge weights, `Ri` and `Ro` the two node-by-edge incidence arrays and `k` the
  projection vector, both programs compute, for every node `n`,
      out(n) = Σ_j M(n,j) · k(j),   M = [ mi | mo | X ],
      mi(n,d) = Σ_e Ri(n,e) · w(e) · bo(e,d),   bo(e,d) = Σ_n' Ro(n',e) · X(n',d)
  and `mo` the same with `Ri` and `Ro` exchanged. The reference multiplies each incidence row by the weights first,
  `(Ri(n,e) · w(e)) · bo(e,d)`; the kernel weights the edge features first, `Ri(n,e) · (w(e) · bo(e,d))`, and takes both
  sums tile by tile: `bo` over 16 tiles of 512 nodes, the message over 8 tiles of 2048 edges, each accumulated into a
  block that starts at zero. On the extended reals multiplication is associative and a finite sum may be taken in any
  grouping, infinite entries included, so the two results are equal entry by entry and no finiteness of the inputs is
  used. The last two host lines (joining `mi`, `mo`, `X` and multiplying by `k`) are the same in both programs and are
  never opened.

  The three frames: each kernel program's run is assembled from its two pallas_calls and the host lines between and
  after them, every argument traced through the buffer contents at the segment boundaries; the reference's is its
  straight line of host operations. The idealization rewrote nothing, so `preserves` is trivial.
-/
import proofs.«105642_j77137612636506_2_alg».proof.Defs
import proofs.«105642_j77137612636506_2_alg».proof.Proof.Gen.Kernel
import proofs.«105642_j77137612636506_2_alg».proof.Proof.Gen.KernelIdeal
import proofs.«105642_j77137612636506_2_alg».proof.Proof.Gen.ReferenceIdeal
import proofs.«105642_j77137612636506_2_alg».proof.Proof.Gen.Pre_finite_inputs
import proofs.«105642_j77137612636506_2_alg».proof.Proof.Bits.Args
import proofs.«105642_j77137612636506_2_alg».proof.Proof.Ideal.Value
import proofs.«105642_j77137612636506_2_alg».proof.Proof.RefValue

noncomputable section

namespace Cert.Proof

open Idealize.ShloMosaic Idealize.ShloMosaic.TcCoe Idealize.SL.Sem

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ =>
  (θ_run Cert.ReferenceIdeal.defs _ _).mono (fun _ h c => (h c).2) (Cert.ReferenceIdeal.RefValue.run_spec m ρ)

theorem preserves : Cert.preserves_Kernel_KernelIdeal := trivial

/-- Both runs end with the result at the common tail of the two messages (in the kernel's grouping), the node features
    and the projection vector, of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
